-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S3x128x128 : Shape := ⟨3, ![3, 128, 128]⟩
abbrev S384x128 : Shape := ⟨2, ![384, 128]⟩
abbrev S384 : Shape := ⟨1, ![384]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_arg5 : FVec F S384 .f32) (main_arg6 : FVec F S384 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384 .f32 := Host.absf main_arg5
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S384 .f32 := Host.absf main_arg6
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S3x128x128 .f32) (main_arg3 : FVec F S384x128 .f32) (main_arg4 : FVec F S384x128 .f32) (main_arg5 : FVec F S384 .f32) (main_arg6 : FVec F S384 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S384x128 .f32 := Host.absf main_arg3
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S384x128 .f32 := Host.absf main_arg4
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S3x128x128 : Shape := ⟨3, ![3, 128, 128]⟩
abbrev S384x128 : Shape := ⟨2, ![384, 128]⟩
abbrev S384 : Shape := ⟨1, ![384]⟩
abbrev S1x800000 : Shape := ⟨2, ![1, 800000]⟩
abbrev S800000 : Shape := ⟨1, ![800000]⟩
abbrev S128x384 : Shape := ⟨2, ![128, 384]⟩
abbrev S1x384 : Shape := ⟨2, ![1, 384]⟩
abbrev S1x128x128 : Shape := ⟨3, ![1, 128, 128]⟩
abbrev S128x128 : Shape := ⟨2, ![128, 128]⟩
abbrev S2000x128 : Shape := ⟨2, ![2000, 128]⟩
abbrev S_ : Shape := ⟨0, ![]⟩
abbrev S800000x1 : Shape := ⟨2, ![800000, 1]⟩
abbrev S800000x128 : Shape := ⟨2, ![800000, 128]⟩
abbrev S2000x384 : Shape := ⟨2, ![2000, 384]⟩

abbrev nBuf : Space → Nat
  | .hbm => 66
  | .vmem => 45
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S3x128x128, .f32⟩
  | .hbm, ⟨3, _⟩ => ⟨S384x128, .f32⟩
  | .hbm, ⟨4, _⟩ => ⟨S384x128, .f32⟩
  | .hbm, ⟨5, _⟩ => ⟨S384, .f32⟩
  | .hbm, ⟨6, _⟩ => ⟨S384, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S128x384, .f32⟩
  | .hbm, ⟨12, _⟩ => ⟨S128x384, .f32⟩
  | .hbm, ⟨13, _⟩ => ⟨S1x384, .f32⟩
  | .hbm, ⟨14, _⟩ => ⟨S1x384, .f32⟩
  | .hbm, ⟨15, _⟩ => ⟨S1x128x128, .f32⟩
  | .hbm, ⟨16, _⟩ => ⟨S128x128, .f32⟩
  | .hbm, ⟨17, _⟩ => ⟨S50000x128, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S50000x128, .f32⟩
  | .hbm, ⟨32, _⟩ => ⟨S1x128x128, .f32⟩
  | .hbm, ⟨33, _⟩ => ⟨S128x128, .f32⟩
  | .hbm, ⟨34, _⟩ => ⟨S50000x128, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S50000x128, .f32⟩
  | .hbm, ⟨49, _⟩ => ⟨S1x128x128, .f32⟩
  | .hbm, ⟨50, _⟩ => ⟨S128x128, .f32⟩
  | .hbm, ⟨51, _⟩ => ⟨S50000x128, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S128x384, .f32⟩
  | .local _ .vmem, ⟨10, _⟩ => ⟨S128x384, .f32⟩
  | .local _ .vmem, ⟨11, _⟩ => ⟨S1x384, .f32⟩
  | .local _ .vmem, ⟨12, _⟩ => ⟨S1x384, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S128x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x384, .f32⟩
  | .local _ .vmem, ⟨25, _⟩ => ⟨S128x384, .f32⟩
  | .local _ .vmem, ⟨26, _⟩ => ⟨S1x384, .f32⟩
  | .local _ .vmem, ⟨27, _⟩ => ⟨S1x384, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S128x384, .f32⟩
  | .local _ .vmem, ⟨40, _⟩ => ⟨S128x384, .f32⟩
  | .local _ .vmem, ⟨41, _⟩ => ⟨S1x384, .f32⟩
  | .local _ .vmem, ⟨42, _⟩ => ⟨S1x384, .f32⟩
  | .local _ .vmem, ⟨43, _⟩ => ⟨S2000x128, .f32⟩
  | .local _ .vmem, ⟨44, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_1 : Ref sig .tc := ⟨.hbm, 35, rfl⟩
abbrev main_v25 : Ref sig .tc := ⟨.hbm, 36, rfl⟩
abbrev main_v26 : Ref sig .tc := ⟨.hbm, 37, rfl⟩
abbrev main_c_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_4 : Ref sig .tc := ⟨.hbm, 52, rfl⟩
abbrev main_v39 : Ref sig .tc := ⟨.hbm, 53, rfl⟩
abbrev main_v40 : Ref sig .tc := ⟨.hbm, 54, rfl⟩
abbrev main_c_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg5_0 : Ref sig .tc := ⟨.vmem, 42, rfl⟩
abbrev cc5_stg6_0 : Ref sig .tc := ⟨.vmem, 43, rfl⟩
abbrev cc5_stg6_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem6_0 : DmaSem sig := 43
abbrev cc5_sem6_1 : DmaSem sig := 44

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x384 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x384 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x384 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x384 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x384 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x384 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x384 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x384 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S384x128_S128x384_1_0 : S384x128.Transposes [1, 0] S128x384
  shapeCasts_S384_S1x384 : S384.ShapeCasts S1x384
  slices_S3x128x128_S1x128x128_0_0_0 : S3x128x128.Slices ![0, 0, 0] S1x128x128
  shapeCasts_S1x128x128_S128x128 : S1x128x128.ShapeCasts S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S2000x128_S2000x128 : S2000x128.ShapeCasts S2000x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  slices_S3x128x128_S1x128x128_1_0_0 : S3x128x128.Slices ![1, 0, 0] S1x128x128
  slices_S3x128x128_S1x128x128_2_0_0 : S3x128x128.Slices ![2, 0, 0] S1x128x128
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x384_S2000x384_1_0_0_1_n_n_wf : DotDims.WF S2000x128 S128x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x384.size a ≤ S128x384.size a
  hwx1_2 : ∀ i : grid1.Coords, EltTy.bits .f32 = 32 ∨ (Rect.block (s := S128x384) S128x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x384.size a ≤ S128x384.size a
  hwx1_3 : ∀ i : grid1.Coords, EltTy.bits .f32 = 32 ∨ (Rect.block (s := S128x384) S128x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x384.size a ≤ S1x384.size a
  hwx1_4 : ∀ i : grid1.Coords, EltTy.bits .f32 = 32 ∨ (Rect.block (s := S1x384) S1x384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x384.size a ≤ S1x384.size a
  hwx1_5 : ∀ i : grid1.Coords, EltTy.bits .f32 = 32 ∨ (Rect.block (s := S1x384) S1x384.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x384.size a ≤ S128x384.size a
  hwx3_2 : ∀ i : grid3.Coords, EltTy.bits .f32 = 32 ∨ (Rect.block (s := S128x384) S128x384.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x384.size a ≤ S128x384.size a
  hwx3_3 : ∀ i : grid3.Coords, EltTy.bits .f32 = 32 ∨ (Rect.block (s := S128x384) S128x384.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x384.size a ≤ S1x384.size a
  hwx3_4 : ∀ i : grid3.Coords, EltTy.bits .f32 = 32 ∨ (Rect.block (s := S1x384) S1x384.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x384.size a ≤ S1x384.size a
  hwx3_5 : ∀ i : grid3.Coords, EltTy.bits .f32 = 32 ∨ (Rect.block (s := S1x384) S1x384.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x384.size a ≤ S128x384.size a
  hwx5_2 : ∀ i : grid5.Coords, EltTy.bits .f32 = 32 ∨ (Rect.block (s := S128x384) S128x384.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x384.size a ≤ S128x384.size a
  hwx5_3 : ∀ i : grid5.Coords, EltTy.bits .f32 = 32 ∨ (Rect.block (s := S128x384) S128x384.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x384.size a ≤ S1x384.size a
  hwx5_4 : ∀ i : grid5.Coords, EltTy.bits .f32 = 32 ∨ (Rect.block (s := S1x384) S1x384.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x384.size a ≤ S1x384.size a
  hwx5_5 : ∀ i : grid5.Coords, EltTy.bits .f32 = 32 ∨ (Rect.block (s := S1x384) S1x384.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S50000x128.size a
  hwx5_6 : ∀ i : grid5.Coords, EltTy.bits .f32 = 32 ∨ (Rect.block (s := S50000x128) S2000x128.size (cc5_transform_6 i) (hinb5_6 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v20) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S128x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S128x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v21) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v34) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4) S128x384.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v5) S128x384.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v6) S1x384.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v7) S1x384.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v35) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v35) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v37) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v38) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v48) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v35) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v4) S128x384.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v5) S128x384.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v6) S1x384.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v7) S1x384.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v49) S2000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S3x128x128 : Shape := ⟨3, ![3, 128, 128]⟩
abbrev S384x128 : Shape := ⟨2, ![384, 128]⟩
abbrev S384 : Shape := ⟨1, ![384]⟩
abbrev S1x800000 : Shape := ⟨2, ![1, 800000]⟩
abbrev S800000 : Shape := ⟨1, ![800000]⟩
abbrev S1x128x128 : Shape := ⟨3, ![1, 128, 128]⟩
abbrev S128x128 : Shape := ⟨2, ![128, 128]⟩
abbrev S_ : Shape := ⟨0, ![]⟩
abbrev S800000x1 : Shape := ⟨2, ![800000, 1]⟩
abbrev S800000x128 : Shape := ⟨2, ![800000, 128]⟩
abbrev S128x384 : Shape := ⟨2, ![128, 384]⟩
abbrev S50000x384 : Shape := ⟨2, ![50000, 384]⟩
abbrev S1x384 : Shape := ⟨2, ![1, 384]⟩

abbrev nBuf : Space → Nat
  | .hbm => 188
  | .vmem => 0
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S384x128, .f32⟩
  | 4 => ⟨S384x128, .f32⟩
  | 5 => ⟨S384, .f32⟩
  | 6 => ⟨S384, .f32⟩
  | 7 => ⟨S1x800000, .i32⟩
  | 8 => ⟨S800000, .i32⟩
  | 9 => ⟨S1x800000, .i32⟩
  | 10 => ⟨S800000, .i32⟩
  | 11 => ⟨S1x128x128, .f32⟩
  | 12 => ⟨S128x128, .f32⟩
  | 13 => ⟨S50000x128, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .f32⟩
  | 23 => ⟨S_, .f32⟩
  | 24 => ⟨S50000x128, .f32⟩
  | 25 => ⟨S800000x1, .i32⟩
  | 26 => ⟨S50000x128, .f32⟩
  | 27 => ⟨S128x384, .f32⟩
  | 28 => ⟨S50000x384, .f32⟩
  | 29 => ⟨S1x384, .f32⟩
  | 30 => ⟨S50000x384, .f32⟩
  | 31 => ⟨S50000x384, .f32⟩
  | 32 => ⟨S128x384, .f32⟩
  | 33 => ⟨S50000x384, .f32⟩
  | 34 => ⟨S1x384, .f32⟩
  | 35 => ⟨S50000x384, .f32⟩
  | 36 => ⟨S50000x384, .f32⟩
  | 37 => ⟨S50000x128, .f32⟩
  | 38 => ⟨S50000x128, .f32⟩
  | 39 => ⟨S50000x128, .f32⟩
  | 40 => ⟨S50000x128, .f32⟩
  | 41 => ⟨S50000x128, .f32⟩
  | 42 => ⟨S50000x128, .f32⟩
  | 43 => ⟨S50000x128, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S50000x128, .f32⟩
  | 53 => ⟨S50000x128, .f32⟩
  | 54 => ⟨S50000x128, .f32⟩
  | 55 => ⟨S_, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S50000x128, .f32⟩
  | 62 => ⟨S50000x128, .f32⟩
  | 63 => ⟨S50000x128, .f32⟩
  | 64 => ⟨S_, .f32⟩
  | 65 => ⟨S50000x128, .f32⟩
  | 66 => ⟨S50000x128, .f32⟩
  | 67 => ⟨S50000x128, .f32⟩
  | 68 => ⟨S50000x128, .f32⟩
  | 69 => ⟨S50000x128, .f32⟩
  | 70 => ⟨S1x128x128, .f32⟩
  | 71 => ⟨S128x128, .f32⟩
  | 72 => ⟨S50000x128, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x128, .f32⟩
  | 82 => ⟨S_, .f32⟩
  | 83 => ⟨S50000x128, .f32⟩
  | 84 => ⟨S800000x1, .i32⟩
  | 85 => ⟨S50000x128, .f32⟩
  | 86 => ⟨S128x384, .f32⟩
  | 87 => ⟨S50000x384, .f32⟩
  | 88 => ⟨S1x384, .f32⟩
  | 89 => ⟨S50000x384, .f32⟩
  | 90 => ⟨S50000x384, .f32⟩
  | 91 => ⟨S128x384, .f32⟩
  | 92 => ⟨S50000x384, .f32⟩
  | 93 => ⟨S1x384, .f32⟩
  | 94 => ⟨S50000x384, .f32⟩
  | 95 => ⟨S50000x384, .f32⟩
  | 96 => ⟨S50000x128, .f32⟩
  | 97 => ⟨S50000x128, .f32⟩
  | 98 => ⟨S50000x128, .f32⟩
  | 99 => ⟨S50000x128, .f32⟩
  | 100 => ⟨S50000x128, .f32⟩
  | 101 => ⟨S50000x128, .f32⟩
  | 102 => ⟨S50000x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S_, .f32⟩
  | 109 => ⟨S50000x128, .f32⟩
  | 110 => ⟨S50000x128, .f32⟩
  | 111 => ⟨S50000x128, .f32⟩
  | 112 => ⟨S50000x128, .f32⟩
  | 113 => ⟨S50000x128, .f32⟩
  | 114 => ⟨S_, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S50000x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S1x128x128, .f32⟩
  | 2 => ⟨S128x128, .f32⟩
  | 3 => ⟨S50000x128, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000x128, .f32⟩
  | 13 => ⟨S_, .f32⟩
  | 14 => ⟨S50000x128, .f32⟩
  | 15 => ⟨S800000x1, .i32⟩
  | 16 => ⟨S50000x128, .f32⟩
  | 17 => ⟨S128x384, .f32⟩
  | 18 => ⟨S50000x384, .f32⟩
  | 19 => ⟨S1x384, .f32⟩
  | 20 => ⟨S50000x384, .f32⟩
  | 21 => ⟨S50000x384, .f32⟩
  | 22 => ⟨S128x384, .f32⟩
  | 23 => ⟨S50000x384, .f32⟩
  | 24 => ⟨S1x384, .f32⟩
  | 25 => ⟨S50000x384, .f32⟩
  | 26 => ⟨S50000x384, .f32⟩
  | 27 => ⟨S50000x128, .f32⟩
  | 28 => ⟨S50000x128, .f32⟩
  | 29 => ⟨S50000x128, .f32⟩
  | 30 => ⟨S50000x128, .f32⟩
  | 31 => ⟨S50000x128, .f32⟩
  | 32 => ⟨S50000x128, .f32⟩
  | 33 => ⟨S50000x128, .f32⟩
  | 34 => ⟨S50000x128, .f32⟩
  | 35 => ⟨S50000x128, .f32⟩
  | 36 => ⟨S_, .f32⟩
  | 37 => ⟨S50000x128, .f32⟩
  | 38 => ⟨S50000x128, .f32⟩
  | 39 => ⟨S_, .f32⟩
  | 40 => ⟨S50000x128, .f32⟩
  | 41 => ⟨S50000x128, .f32⟩
  | 42 => ⟨S50000x128, .f32⟩
  | 43 => ⟨S50000x128, .f32⟩
  | 44 => ⟨S50000x128, .f32⟩
  | 45 => ⟨S_, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S50000x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S50000x128, .f32⟩
  | 58 => ⟨S50000x128, .f32⟩
  | 59 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_1 : Ref sig .tc := ⟨.hbm, 46, rfl⟩
abbrev main_v36 : Ref sig .tc := ⟨.hbm, 47, rfl⟩
abbrev main_v37 : Ref sig .tc := ⟨.hbm, 48, rfl⟩
abbrev main_cst_2 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_3 : Ref sig .tc := ⟨.hbm, 55, rfl⟩
abbrev main_v43 : Ref sig .tc := ⟨.hbm, 56, rfl⟩
abbrev main_v44 : Ref sig .tc := ⟨.hbm, 57, rfl⟩
abbrev main_cst_4 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_5 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_c_6 : Ref sig .tc := ⟨.hbm, 73, rfl⟩
abbrev main_v58 : Ref sig .tc := ⟨.hbm, 74, rfl⟩
abbrev main_v59 : Ref sig .tc := ⟨.hbm, 75, rfl⟩
abbrev main_c_7 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_8 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_cst_9 : Ref sig .tc := ⟨.hbm, 105, rfl⟩
abbrev main_v87 : Ref sig .tc := ⟨.hbm, 106, rfl⟩
abbrev main_v88 : Ref sig .tc := ⟨.hbm, 107, rfl⟩
abbrev main_cst_10 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_cst_11 : Ref sig .tc := ⟨.hbm, 114, rfl⟩
abbrev main_v94 : Ref sig .tc := ⟨.hbm, 115, rfl⟩
abbrev main_v95 : Ref sig .tc := ⟨.hbm, 116, rfl⟩
abbrev main_cst_12 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_cst_13 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_c_14 : Ref sig .tc := ⟨.hbm, 132, rfl⟩
abbrev main_v109 : Ref sig .tc := ⟨.hbm, 133, rfl⟩
abbrev main_v110 : Ref sig .tc := ⟨.hbm, 134, rfl⟩
abbrev main_c_15 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_cst_16 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_cst_17 : Ref sig .tc := ⟨.hbm, 164, rfl⟩
abbrev main_v138 : Ref sig .tc := ⟨.hbm, 165, rfl⟩
abbrev main_v139 : Ref sig .tc := ⟨.hbm, 166, rfl⟩
abbrev main_cst_18 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_cst_19 : Ref sig .tc := ⟨.hbm, 173, rfl⟩
abbrev main_v145 : Ref sig .tc := ⟨.hbm, 174, rfl⟩
abbrev main_v146 : Ref sig .tc := ⟨.hbm, 175, rfl⟩
abbrev main_cst_20 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_cst_21 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x128x128_S1x128x128_0_0_0 : S3x128x128.Slices ![0, 0, 0] S1x128x128
  shapeCasts_S1x128x128_S128x128 : S1x128x128.ShapeCasts S128x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S384x128_S128x384_1_0 : S384x128.Transposes [1, 0] S128x384
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  slices_S3x128x128_S1x128x128_1_0_0 : S3x128x128.Slices ![1, 0, 0] S1x128x128
  slices_S3x128x128_S1x128x128_2_0_0 : S3x128x128.Slices ![2, 0, 0] S1x128x128
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x384_S50000x384_1_0_0_1_n_n_wf : DotDims.WF S50000x128 S128x384 S50000x384 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf

class Facts : Prop extends Facts₀ where

variable [Facts]
-- ==== Proof.KernelRun.lean ====
/-
  The idealized kernel program's run with its result named: every weakly fair execution terminates, nothing
  faulting, the arguments as launched, and the result buffer at the contents the twelve segments of the program
  (six stretches of host operations, six kernel launches) leave in it, a fold from the launch memory.
-/
import proofs.«112620_j43748536877306_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the final state holds every unscoped buffer at the last boundary's contents; read at the result and at
    the seven arguments. -/
theorem run : θ_run defs (onTc (τ := τ) (main (F := F))) ⟨m, fun _ => 0, ρ⟩ (fun r => ∀ c : Dev nD,
      r.2.mem ((c.tc : Thread nD τ).loc main_v49) = W12 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v49 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c)⟩)

end Cert.KernelIdeal.RunValue

end
-- ==== Proof.Carried.lean ====
/-
  What each segment of the idealized kernel program leaves alone.

  A kernel launch changes one array, its output: an input array is read back as it was entered and any other buffer
  is not touched.  A stretch of host operations changes the buffers it writes.  So a buffer that no host operation after
  the first stretch writes, and that is no launch's output, holds at every later boundary what it held after the first
  stretch.  The same lemma is stated at each of the six launches and each of the six stretches.
-/
import proofs.«112620_j43748536877306_1_alg».proof.Proof.Gen.KernelIdeal.Frame
import Idealize.ShloMosaic.Lib.StableHlo.Run
import Idealize.ShloMosaic.PureOps.Ideal

set_option maxRecDepth 16384

noncomputable section

namespace Cert.KernelIdeal.Boundary

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ## A launch changes its output array only -/

/-- The first message launch writes main_v10 and nothing else: an input array is read back as it was entered, any other
    buffer is not touched. -/
theorem launch0_keeps (b : Ref sig .tc) (hb : b ≠ main_v10) :
    W2 m ρ c (Proc.devRef .tc b) = W1 m ρ c (Proc.devRef .tc b) := by
  by_cases h : ∀ w, Pipeline.arrRef spec0 w ≠ b
  · exact W2_of_ne m ρ c b h
  · obtain ⟨w, hw⟩ := not_forall.mp h
    have hw : Pipeline.arrRef spec0 w = b := not_not.mp hw
    subst hw
    match w, hb with
    | 0, _ => exact (W2_arr m ρ c 0).trans (((dat0 (V1 m ρ) c).arrAt_in 0 rfl _).trans (A_eq0 (V1 m ρ) c 0))
    | 1, _ => exact (W2_arr m ρ c 1).trans (((dat0 (V1 m ρ) c).arrAt_in 1 rfl _).trans (A_eq0 (V1 m ρ) c 1))
    | 2, hb => exact absurd rfl hb
    | ⟨_ + 3, h⟩, _ => exact absurd h (Nat.not_lt.2 (Nat.le_add_left _ _))

/-- The first cell launch writes main_v21 and nothing else: an input array is read back as it was entered, any other
    buffer is not touched. -/
theorem launch1_keeps (b : Ref sig .tc) (hb : b ≠ main_v21) :
    W4 m ρ c (Proc.devRef .tc b) = W3 m ρ c (Proc.devRef .tc b) := by
  by_cases h : ∀ w, Pipeline.arrRef spec1 w ≠ b
  · exact W4_of_ne m ρ c b h
  · obtain ⟨w, hw⟩ := not_forall.mp h
    have hw : Pipeline.arrRef spec1 w = b := not_not.mp hw
    subst hw
    match w, hb with
    | 0, _ => exact (W4_arr m ρ c 0).trans (((dat1 (V3 m ρ) c).arrAt_in 0 rfl _).trans (A_eq1 (V3 m ρ) c 0))
    | 1, _ => exact (W4_arr m ρ c 1).trans (((dat1 (V3 m ρ) c).arrAt_in 1 rfl _).trans (A_eq1 (V3 m ρ) c 1))
    | 2, _ => exact (W4_arr m ρ c 2).trans (((dat1 (V3 m ρ) c).arrAt_in 2 rfl _).trans (A_eq1 (V3 m ρ) c 2))
    | 3, _ => exact (W4_arr m ρ c 3).trans (((dat1 (V3 m ρ) c).arrAt_in 3 rfl _).trans (A_eq1 (V3 m ρ) c 3))
    | 4, _ => exact (W4_arr m ρ c 4).trans (((dat1 (V3 m ρ) c).arrAt_in 4 rfl _).trans (A_eq1 (V3 m ρ) c 4))
    | 5, _ => exact (W4_arr m ρ c 5).trans (((dat1 (V3 m ρ) c).arrAt_in 5 rfl _).trans (A_eq1 (V3 m ρ) c 5))
    | 6, hb => exact absurd rfl hb
    | ⟨_ + 7, h⟩, _ => exact absurd h (Nat.not_lt.2 (Nat.le_add_left _ _))

/-- The second message launch writes main_v24 and nothing else: an input array is read back as it was entered, any other
    buffer is not touched. -/
theorem launch2_keeps (b : Ref sig .tc) (hb : b ≠ main_v24) :
    W6 m ρ c (Proc.devRef .tc b) = W5 m ρ c (Proc.devRef .tc b) := by
  by_cases h : ∀ w, Pipeline.arrRef spec2 w ≠ b
  · exact W6_of_ne m ρ c b h
  · obtain ⟨w, hw⟩ := not_forall.mp h
    have hw : Pipeline.arrRef spec2 w = b := not_not.mp hw
    subst hw
    match w, hb with
    | 0, _ => exact (W6_arr m ρ c 0).trans (((dat2 (V5 m ρ) c).arrAt_in 0 rfl _).trans (A_eq2 (V5 m ρ) c 0))
    | 1, _ => exact (W6_arr m ρ c 1).trans (((dat2 (V5 m ρ) c).arrAt_in 1 rfl _).trans (A_eq2 (V5 m ρ) c 1))
    | 2, hb => exact absurd rfl hb
    | ⟨_ + 3, h⟩, _ => exact absurd h (Nat.not_lt.2 (Nat.le_add_left _ _))

/-- The second cell launch writes main_v35 and nothing else: an input array is read back as it was entered, any other
    buffer is not touched. -/
theorem launch3_keeps (b : Ref sig .tc) (hb : b ≠ main_v35) :
    W8 m ρ c (Proc.devRef .tc b) = W7 m ρ c (Proc.devRef .tc b) := by
  by_cases h : ∀ w, Pipeline.arrRef spec3 w ≠ b
  · exact W8_of_ne m ρ c b h
  · obtain ⟨w, hw⟩ := not_forall.mp h
    have hw : Pipeline.arrRef spec3 w = b := not_not.mp hw
    subst hw
    match w, hb with
    | 0, _ => exact (W8_arr m ρ c 0).trans (((dat3 (V7 m ρ) c).arrAt_in 0 rfl _).trans (A_eq3 (V7 m ρ) c 0))
    | 1, _ => exact (W8_arr m ρ c 1).trans (((dat3 (V7 m ρ) c).arrAt_in 1 rfl _).trans (A_eq3 (V7 m ρ) c 1))
    | 2, _ => exact (W8_arr m ρ c 2).trans (((dat3 (V7 m ρ) c).arrAt_in 2 rfl _).trans (A_eq3 (V7 m ρ) c 2))
    | 3, _ => exact (W8_arr m ρ c 3).trans (((dat3 (V7 m ρ) c).arrAt_in 3 rfl _).trans (A_eq3 (V7 m ρ) c 3))
    | 4, _ => exact (W8_arr m ρ c 4).trans (((dat3 (V7 m ρ) c).arrAt_in 4 rfl _).trans (A_eq3 (V7 m ρ) c 4))
    | 5, _ => exact (W8_arr m ρ c 5).trans (((dat3 (V7 m ρ) c).arrAt_in 5 rfl _).trans (A_eq3 (V7 m ρ) c 5))
    | 6, hb => exact absurd rfl hb
    | ⟨_ + 7, h⟩, _ => exact absurd h (Nat.not_lt.2 (Nat.le_add_left _ _))

/-- The third message launch writes main_v38 and nothing else: an input array is read back as it was entered, any other
    buffer is not touched. -/
theorem launch4_keeps (b : Ref sig .tc) (hb : b ≠ main_v38) :
    W10 m ρ c (Proc.devRef .tc b) = W9 m ρ c (Proc.devRef .tc b) := by
  by_cases h : ∀ w, Pipeline.arrRef spec4 w ≠ b
  · exact W10_of_ne m ρ c b h
  · obtain ⟨w, hw⟩ := not_forall.mp h
    have hw : Pipeline.arrRef spec4 w = b := not_not.mp hw
    subst hw
    match w, hb with
    | 0, _ => exact (W10_arr m ρ c 0).trans (((dat4 (V9 m ρ) c).arrAt_in 0 rfl _).trans (A_eq4 (V9 m ρ) c 0))
    | 1, _ => exact (W10_arr m ρ c 1).trans (((dat4 (V9 m ρ) c).arrAt_in 1 rfl _).trans (A_eq4 (V9 m ρ) c 1))
    | 2, hb => exact absurd rfl hb
    | ⟨_ + 3, h⟩, _ => exact absurd h (Nat.not_lt.2 (Nat.le_add_left _ _))

/-- The third cell launch writes main_v49 and nothing else: an input array is read back as it was entered, any other
    buffer is not touched. -/
theorem launch5_keeps (b : Ref sig .tc) (hb : b ≠ main_v49) :
    W12 m ρ c (Proc.devRef .tc b) = W11 m ρ c (Proc.devRef .tc b) := by
  by_cases h : ∀ w, Pipeline.arrRef spec5 w ≠ b
  · exact W12_of_ne m ρ c b h
  · obtain ⟨w, hw⟩ := not_forall.mp h
    have hw : Pipeline.arrRef spec5 w = b := not_not.mp hw
    subst hw
    match w, hb with
    | 0, _ => exact (W12_arr m ρ c 0).trans (((dat5 (V11 m ρ) c).arrAt_in 0 rfl _).trans (A_eq5 (V11 m ρ) c 0))
    | 1, _ => exact (W12_arr m ρ c 1).trans (((dat5 (V11 m ρ) c).arrAt_in 1 rfl _).trans (A_eq5 (V11 m ρ) c 1))
    | 2, _ => exact (W12_arr m ρ c 2).trans (((dat5 (V11 m ρ) c).arrAt_in 2 rfl _).trans (A_eq5 (V11 m ρ) c 2))
    | 3, _ => exact (W12_arr m ρ c 3).trans (((dat5 (V11 m ρ) c).arrAt_in 3 rfl _).trans (A_eq5 (V11 m ρ) c 3))
    | 4, _ => exact (W12_arr m ρ c 4).trans (((dat5 (V11 m ρ) c).arrAt_in 4 rfl _).trans (A_eq5 (V11 m ρ) c 4))
    | 5, _ => exact (W12_arr m ρ c 5).trans (((dat5 (V11 m ρ) c).arrAt_in 5 rfl _).trans (A_eq5 (V11 m ρ) c 5))
    | 6, hb => exact absurd rfl hb
    | ⟨_ + 7, h⟩, _ => exact absurd h (Nat.not_lt.2 (Nat.le_add_left _ _))

/-! ## A host stretch changes the buffers it writes only -/

/-- The buffers host stretch 0 writes. -/
abbrev host0_W : List (Ref sig .tc) := [main_v0, main_v1, main_v2, main_v3, main_v4, main_v5, main_v6, main_v7, main_v8, main_v9]
theorem host0_writes : (hostOps0 : List (HloOp τ sig (Elt Ideal))).Forall fun op => op.writes ⊆ (host0_W.map (Proc.devRef (τ := τ) .tc)).toFinset := by
  simp only [hostOps0, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
/-- A buffer host stretch 0 does not write is the same after it. -/
theorem host0_keeps (b : Ref sig .tc) (hb : b ∉ host0_W) :
    W1 m ρ c (Proc.devRef .tc b) = W0 m ρ c (Proc.devRef .tc b) :=
  StableHlo.after_of_writes_sub hostOps0 _ host0_writes hb

/-- The buffers host stretch 1 writes. -/
abbrev host1_W : List (Ref sig .tc) := [main_c, main_v11, main_v12, main_c_0, main_v13, main_v14, main_v15, main_v16, main_v17, main_cst, main_v18, main_v19, main_v20]
theorem host1_writes : (hostOps1 : List (HloOp τ sig (Elt Ideal))).Forall fun op => op.writes ⊆ (host1_W.map (Proc.devRef (τ := τ) .tc)).toFinset := by
  simp only [hostOps1, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
/-- A buffer host stretch 1 does not write is the same after it. -/
theorem host1_keeps (b : Ref sig .tc) (hb : b ∉ host1_W) :
    W3 m ρ c (Proc.devRef .tc b) = W2 m ρ c (Proc.devRef .tc b) :=
  StableHlo.after_of_writes_sub hostOps1 _ host1_writes hb

/-- The buffers host stretch 2 writes. -/
abbrev host2_W : List (Ref sig .tc) := [main_v22, main_v23]
theorem host2_writes : (hostOps2 : List (HloOp τ sig (Elt Ideal))).Forall fun op => op.writes ⊆ (host2_W.map (Proc.devRef (τ := τ) .tc)).toFinset := by
  simp only [hostOps2, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
/-- A buffer host stretch 2 does not write is the same after it. -/
theorem host2_keeps (b : Ref sig .tc) (hb : b ∉ host2_W) :
    W5 m ρ c (Proc.devRef .tc b) = W4 m ρ c (Proc.devRef .tc b) :=
  StableHlo.after_of_writes_sub hostOps2 _ host2_writes hb

/-- The buffers host stretch 3 writes. -/
abbrev host3_W : List (Ref sig .tc) := [main_c_1, main_v25, main_v26, main_c_2, main_v27, main_v28, main_v29, main_v30, main_v31, main_cst_3, main_v32, main_v33, main_v34]
theorem host3_writes : (hostOps3 : List (HloOp τ sig (Elt Ideal))).Forall fun op => op.writes ⊆ (host3_W.map (Proc.devRef (τ := τ) .tc)).toFinset := by
  simp only [hostOps3, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
/-- A buffer host stretch 3 does not write is the same after it. -/
theorem host3_keeps (b : Ref sig .tc) (hb : b ∉ host3_W) :
    W7 m ρ c (Proc.devRef .tc b) = W6 m ρ c (Proc.devRef .tc b) :=
  StableHlo.after_of_writes_sub hostOps3 _ host3_writes hb

/-- The buffers host stretch 4 writes. -/
abbrev host4_W : List (Ref sig .tc) := [main_v36, main_v37]
theorem host4_writes : (hostOps4 : List (HloOp τ sig (Elt Ideal))).Forall fun op => op.writes ⊆ (host4_W.map (Proc.devRef (τ := τ) .tc)).toFinset := by
  simp only [hostOps4, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
/-- A buffer host stretch 4 does not write is the same after it. -/
theorem host4_keeps (b : Ref sig .tc) (hb : b ∉ host4_W) :
    W9 m ρ c (Proc.devRef .tc b) = W8 m ρ c (Proc.devRef .tc b) :=
  StableHlo.after_of_writes_sub hostOps4 _ host4_writes hb

/-- The buffers host stretch 5 writes. -/
abbrev host5_W : List (Ref sig .tc) := [main_c_4, main_v39, main_v40, main_c_5, main_v41, main_v42, main_v43, main_v44, main_v45, main_cst_6, main_v46, main_v47, main_v48]
theorem host5_writes : (hostOps5 : List (HloOp τ sig (Elt Ideal))).Forall fun op => op.writes ⊆ (host5_W.map (Proc.devRef (τ := τ) .tc)).toFinset := by
  simp only [hostOps5, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
/-- A buffer host stretch 5 does not write is the same after it. -/
theorem host5_keeps (b : Ref sig .tc) (hb : b ∉ host5_W) :
    W11 m ρ c (Proc.devRef .tc b) = W10 m ρ c (Proc.devRef .tc b) :=
  StableHlo.after_of_writes_sub hostOps5 _ host5_writes hb

/-! ## The buffers nothing writes after the first stretch -/

/-- Written by no host operation after the first stretch and by no launch before the last. -/
def Quiet (b : Ref sig .tc) : Prop :=
  b ∉ host1_W ∧ b ∉ host2_W ∧ b ∉ host3_W ∧ b ∉ host4_W ∧ b ∉ host5_W
    ∧ b ≠ main_v10 ∧ b ≠ main_v21 ∧ b ≠ main_v24 ∧ b ≠ main_v35 ∧ b ≠ main_v38

instance (b : Ref sig .tc) : Decidable (Quiet b) := by unfold Quiet; infer_instance

theorem quiet_W2 (b : Ref sig .tc) (h : Quiet b) : W2 m ρ c (Proc.devRef .tc b) = W1 m ρ c (Proc.devRef .tc b) :=
  (launch0_keeps m ρ c b h.2.2.2.2.2.1)
theorem quiet_W3 (b : Ref sig .tc) (h : Quiet b) : W3 m ρ c (Proc.devRef .tc b) = W1 m ρ c (Proc.devRef .tc b) :=
  (host1_keeps m ρ c b h.1).trans (quiet_W2 m ρ c b h)
theorem quiet_W4 (b : Ref sig .tc) (h : Quiet b) : W4 m ρ c (Proc.devRef .tc b) = W1 m ρ c (Proc.devRef .tc b) :=
  (launch1_keeps m ρ c b h.2.2.2.2.2.2.1).trans (quiet_W3 m ρ c b h)
theorem quiet_W5 (b : Ref sig .tc) (h : Quiet b) : W5 m ρ c (Proc.devRef .tc b) = W1 m ρ c (Proc.devRef .tc b) :=
  (host2_keeps m ρ c b h.2.1).trans (quiet_W4 m ρ c b h)
theorem quiet_W6 (b : Ref sig .tc) (h : Quiet b) : W6 m ρ c (Proc.devRef .tc b) = W1 m ρ c (Proc.devRef .tc b) :=
  (launch2_keeps m ρ c b h.2.2.2.2.2.2.2.1).trans (quiet_W5 m ρ c b h)
theorem quiet_W7 (b : Ref sig .tc) (h : Quiet b) : W7 m ρ c (Proc.devRef .tc b) = W1 m ρ c (Proc.devRef .tc b) :=
  (host3_keeps m ρ c b h.2.2.1).trans (quiet_W6 m ρ c b h)
theorem quiet_W8 (b : Ref sig .tc) (h : Quiet b) : W8 m ρ c (Proc.devRef .tc b) = W1 m ρ c (Proc.devRef .tc b) :=
  (launch3_keeps m ρ c b h.2.2.2.2.2.2.2.2.1).trans (quiet_W7 m ρ c b h)
theorem quiet_W9 (b : Ref sig .tc) (h : Quiet b) : W9 m ρ c (Proc.devRef .tc b) = W1 m ρ c (Proc.devRef .tc b) :=
  (host4_keeps m ρ c b h.2.2.2.1).trans (quiet_W8 m ρ c b h)
theorem quiet_W10 (b : Ref sig .tc) (h : Quiet b) : W10 m ρ c (Proc.devRef .tc b) = W1 m ρ c (Proc.devRef .tc b) :=
  (launch4_keeps m ρ c b h.2.2.2.2.2.2.2.2.2).trans (quiet_W9 m ρ c b h)
theorem quiet_W11 (b : Ref sig .tc) (h : Quiet b) : W11 m ρ c (Proc.devRef .tc b) = W1 m ρ c (Proc.devRef .tc b) :=
  (host5_keeps m ρ c b h.2.2.2.2.1).trans (quiet_W10 m ρ c b h)

end Cert.KernelIdeal.Boundary

end
-- ==== Proof.Layer.lean ====
/-
  One layer of the gated graph convolution, entry by entry on the extended reals.

  For node features h : [50000,128] and a square weight W the messages are m = h·W, an ordinary matrix product
  (mm).  The messages are gathered along the source nodes of the edges and summed into the destination nodes (agg;
  the gather and the scatter-add are carried as whole-array operations and never opened).  The update is a gated
  recurrent cell: with the input pre-activation gi = agg·wi + bi and the hidden one gh = h·wh + bh, both of 384
  columns cut into three bands of 128,
      r = σ(gi₀ + gh₀),   z = σ(gi₁ + gh₁),   n = tanh(gi₂ + r·gh₂),   h' = (1 − z)·n + z·h,
  where σ x = 1/(1 + e^(−x)).  Nothing here uses that an entry is finite.
-/
import Idealize.ShloMosaic.PureOps.Ideal
import Idealize.ShloMosaic.Lib.ValueIdx

noncomputable section

open scoped BigOperators

namespace Cert.GatedLayer

open Idealize.ShloMosaic Idealize.ShloMosaic.ValueIdx

/-- Node features: 50000 nodes, 128 channels. -/
abbrev Nodes : Shape := ⟨2, ![50000, 128]⟩
/-- A layer's message weight. -/
abbrev Square : Shape := ⟨2, ![128, 128]⟩
/-- A cell weight, already transposed: 128 rows, three bands of 128 columns. -/
abbrev Wide : Shape := ⟨2, ![128, 384]⟩
/-- A cell bias laid out as one row. -/
abbrev Row : Shape := ⟨2, ![1, 384]⟩
/-- One word per edge. -/
abbrev Edges : Shape := ⟨1, ![800000]⟩
/-- The same as a column. -/
abbrev EdgeCol : Shape := ⟨2, ![800000, 1]⟩
/-- One message row per edge. -/
abbrev EdgeRows : Shape := ⟨2, ![800000, 128]⟩
/-- The scalar shape. -/
abbrev Unit0 : Shape := ⟨0, ![]⟩

/-- Entry (p,q) of the product h·W. -/
def mmAt (h : FVec Ideal Nodes .f32) (W : FVec Ideal Square .f32) (p : Fin 50000) (q : Fin 128) : EReal :=
  ∑ k : Fin 128, h (ix2 p k) * W (ix2 k q)

/-- The messages h·W. -/
def mm (h : FVec Ideal Nodes .f32) (W : FVec Ideal Square .f32) : FVec Ideal Nodes .f32 :=
  fun i => mmAt h W (i 0) (i 1)

/-- Column q of the first band. -/
def lo (q : Fin 128) : Fin 384 := ⟨q.val, by have := q.isLt; omega⟩
/-- Column q of the second band. -/
def mid (q : Fin 128) : Fin 384 := ⟨128 + q.val, by have := q.isLt; omega⟩
/-- Column q of the third band. -/
def hi (q : Fin 128) : Fin 384 := ⟨256 + q.val, by have := q.isLt; omega⟩

/-- Entry (p,q) of a pre-activation a·w + b, the bias row b repeated down the rows. -/
def preAt (a : FVec Ideal Nodes .f32) (w : FVec Ideal Wide .f32) (b : FVec Ideal Row .f32) (p : Fin 50000) (q : Fin 384) : EReal :=
  (∑ k : Fin 128, a (ix2 p k) * w (ix2 k q)) + b (ix2 (0 : Fin 1) q)

/-- Entry (p,q) of the cell's new state. -/
def gruAt (a h : FVec Ideal Nodes .f32) (wi wh : FVec Ideal Wide .f32) (bi bh : FVec Ideal Row .f32)
    (p : Fin 50000) (q : Fin 128) : EReal :=
  (1 - Ideal.logistic (preAt a wi bi p (mid q) + preAt h wh bh p (mid q)))
      * Ideal.tanh (preAt a wi bi p (hi q)
          + Ideal.logistic (preAt a wi bi p (lo q) + preAt h wh bh p (lo q)) * preAt h wh bh p (hi q))
    + Ideal.logistic (preAt a wi bi p (mid q) + preAt h wh bh p (mid q)) * h (ix2 p q)

/-- The cell's new state from the aggregated messages a and the old state h. -/
def gru (a h : FVec Ideal Nodes .f32) (wi wh : FVec Ideal Wide .f32) (bi bh : FVec Ideal Row .f32) : FVec Ideal Nodes .f32 :=
  fun i => gruAt a h wi wh bi bh (i 0) (i 1)

/-- The aggregation: message rows gathered at the edges' source words (a negative word moved up by the node count
    first) and summed into the rows the destination words name, from zero.  The two index operations are taken as
    given: gd and sd are their dimension records. -/
def agg (gd : GatherDims Nodes EdgeCol EdgeRows) (sd : ScatterDims Nodes EdgeCol EdgeRows)
    (hb : Unit0.BroadcastsInDim Edges ![]) (hc : Edges.BroadcastsInDim EdgeCol ![0]) (hz : Unit0.BroadcastsInDim Nodes ![])
    (m : FVec Ideal Nodes .f32) (src dst : IVec Edges 32) : FVec Ideal Nodes .f32 :=
  Host.scatterAdd sd (broadcastInDim Nodes ![] hz (constant (F := Ideal) Unit0 .f32 0x00000000#32)) (broadcastInDim EdgeCol ![0] hc dst)
    (Host.gather gd m (broadcastInDim EdgeCol ![0] hc
      (select (cmpi .slt src (broadcastInDim Edges ![] hb (constantI Unit0 32 0#32)))
        (addi src (broadcastInDim Edges ![] hb (constantI Unit0 32 50000#32))) src)))

/-- One layer: messages, aggregation, cell. -/
def layer (gd : GatherDims Nodes EdgeCol EdgeRows) (sd : ScatterDims Nodes EdgeCol EdgeRows)
    (hb : Unit0.BroadcastsInDim Edges ![]) (hc : Edges.BroadcastsInDim EdgeCol ![0]) (hz : Unit0.BroadcastsInDim Nodes ![])
    (src dst : IVec Edges 32) (wi wh : FVec Ideal Wide .f32) (bi bh : FVec Ideal Row .f32)
    (W : FVec Ideal Square .f32) (h : FVec Ideal Nodes .f32) : FVec Ideal Nodes .f32 :=
  gru (agg gd sd hb hc hz (mm h W) src dst) h wi wh bi bh

/-- The word of 1.0 denotes 1. -/
theorem one_word : Ideal.ofBits .f32 0x3F800000#32 = 1 := by
  simp [Ideal.ofBits, Ideal.ieee, -EReal.coe_mul]; norm_num

end Cert.GatedLayer

end
-- ==== Proof.Boundary.lean ====
/-
  The idealized kernel program's result as three layers of the gated graph convolution.

  The first stretch of host operations cuts the edge words into source and destination words, transposes the two cell
  weights, lays the two cell biases out as rows and cuts the first message weight out of the stack.  Then, three
  times: a launch multiplies the node state by the layer's message weight; a stretch of host operations gathers the
  message rows at the source words and sums them into the destination rows; a launch applies the cell to the sums
  and the state; and (twice) a short stretch cuts the next message weight out of the stack.  Reading each segment's
  output and carrying everything else across, the result buffer holds layer₂ (layer₁ (layer₀ z)).

  What a launch leaves in its output array is taken here as a hypothesis, one per launch, stated at any contents the
  launch may find: the product h·W for a message launch, the cell for a cell launch.
-/
import proofs.«112620_j43748536877306_1_alg».proof.Proof.Carried
import proofs.«112620_j43748536877306_1_alg».proof.Proof.Layer

set_option maxRecDepth 16384

noncomputable section

namespace Cert.KernelIdeal.Boundary

open Cert.KernelIdeal Cert.KernelIdeal.Gen
open Idealize.ShloMosaic Idealize.ShloMosaic.TcCoe Idealize.SL.Sem
open Idealize.ShloMosaic.Pipeline (Dat)
open Cert.GatedLayer (mm gru agg layer)

variable (m : (ℓ : Loc nD τ sig) → Buf (Elt Ideal) ℓ) (ρ : Dev nD → PrngReg) (c : Dev nD)

/-! ## The quantities the first stretch fixes -/

/-- The edges' source words: row 0 of the edge array. -/
def src : IVec S800000 32 :=
  shapeCast S800000 (extractStridedSlice S1x800000 ![0, 0] (m ((c : Thread nD τ).loc main_arg1)) slices_S2x800000_S1x800000_0_0) shapeCasts_S1x800000_S800000
/-- The edges' destination words: row 1 of the edge array. -/
def dst : IVec S800000 32 :=
  shapeCast S800000 (extractStridedSlice S1x800000 ![1, 0] (m ((c : Thread nD τ).loc main_arg1)) slices_S2x800000_S1x800000_1_0) shapeCasts_S1x800000_S800000
/-- The input cell weight, transposed. -/
def wi : FVec Ideal S128x384 .f32 := transpose S128x384 [1, 0] (m ((c : Thread nD τ).loc main_arg3)) transposes_S384x128_S128x384_1_0
/-- The hidden cell weight, transposed. -/
def wh : FVec Ideal S128x384 .f32 := transpose S128x384 [1, 0] (m ((c : Thread nD τ).loc main_arg4)) transposes_S384x128_S128x384_1_0
/-- The input cell bias as a row. -/
def bi : FVec Ideal S1x384 .f32 := shapeCast S1x384 (m ((c : Thread nD τ).loc main_arg5)) shapeCasts_S384_S1x384
/-- The hidden cell bias as a row. -/
def bh : FVec Ideal S1x384 .f32 := shapeCast S1x384 (m ((c : Thread nD τ).loc main_arg6)) shapeCasts_S384_S1x384
/-- The first layer's message weight: slab 0 of the stack. -/
def slab0 : FVec Ideal S128x128 .f32 :=
  shapeCast S128x128 (extractStridedSlice S1x128x128 ![0, 0, 0] (m ((c : Thread nD τ).loc main_arg2)) slices_S3x128x128_S1x128x128_0_0_0) shapeCasts_S1x128x128_S128x128
/-- The second layer's message weight: slab 1. -/
def slab1 : FVec Ideal S128x128 .f32 :=
  shapeCast S128x128 (extractStridedSlice S1x128x128 ![1, 0, 0] (m ((c : Thread nD τ).loc main_arg2)) slices_S3x128x128_S1x128x128_1_0_0) shapeCasts_S1x128x128_S128x128
/-- The third layer's message weight: slab 2. -/
def slab2 : FVec Ideal S128x128 .f32 :=
  shapeCast S128x128 (extractStridedSlice S1x128x128 ![2, 0, 0] (m ((c : Thread nD τ).loc main_arg2)) slices_S3x128x128_S1x128x128_2_0_0) shapeCasts_S1x128x128_S128x128

/-- One layer with this program's edge words, cell weights and biases. -/
def step (W : FVec Ideal S128x128 .f32) (h : FVec Ideal S50000x128 .f32) : FVec Ideal S50000x128 .f32 :=
  layer gather_S50000x128_S800000x1_S800000x128_1_0_n_n_0_1_1128 scatter_S50000x128_S800000x1_S800000x128_1_0_0_1
    bcast_S_S800000 bcast_S800000_S800000x1_0 bcast_S_S50000x128
    (src m c) (dst m c) (wi m c) (wh m c) (bi m c) (bh m c) W h

/-! ## What the first stretch leaves -/

theorem W1_src : W1 m ρ c (Proc.devRef .tc main_v1) = src m c := by
  show StableHlo.after hostOps0 (W0 m ρ c) (Proc.devRef .tc main_v1) = _
  after_results
  rfl
theorem W1_dst : W1 m ρ c (Proc.devRef .tc main_v3) = dst m c := by
  show StableHlo.after hostOps0 (W0 m ρ c) (Proc.devRef .tc main_v3) = _
  after_results
  rfl
theorem W1_wi : W1 m ρ c (Proc.devRef .tc main_v4) = wi m c := by
  show StableHlo.after hostOps0 (W0 m ρ c) (Proc.devRef .tc main_v4) = _
  after_results
  rfl
theorem W1_wh : W1 m ρ c (Proc.devRef .tc main_v5) = wh m c := by
  show StableHlo.after hostOps0 (W0 m ρ c) (Proc.devRef .tc main_v5) = _
  after_results
  rfl
theorem W1_bi : W1 m ρ c (Proc.devRef .tc main_v6) = bi m c := by
  show StableHlo.after hostOps0 (W0 m ρ c) (Proc.devRef .tc main_v6) = _
  after_results
  rfl
theorem W1_bh : W1 m ρ c (Proc.devRef .tc main_v7) = bh m c := by
  show StableHlo.after hostOps0 (W0 m ρ c) (Proc.devRef .tc main_v7) = _
  after_results
  rfl
theorem W1_slab0 : W1 m ρ c (Proc.devRef .tc main_v9) = slab0 m c := by
  show StableHlo.after hostOps0 (W0 m ρ c) (Proc.devRef .tc main_v9) = _
  after_results
  rfl
/-- The node features and the weight stack are not written by it. -/
theorem W1_arg0 : W1 m ρ c (Proc.devRef .tc main_arg0) = m ((c : Thread nD τ).loc main_arg0) :=
  host0_keeps m ρ c main_arg0 (by decide)
theorem W1_arg2 : W1 m ρ c (Proc.devRef .tc main_arg2) = m ((c : Thread nD τ).loc main_arg2) :=
  host0_keeps m ρ c main_arg2 (by decide)

/-! ## The three aggregations and the two later weight slabs, each read off its stretch -/

theorem W3_agg : W3 m ρ c (Proc.devRef .tc main_v20)
    = agg gather_S50000x128_S800000x1_S800000x128_1_0_n_n_0_1_1128 scatter_S50000x128_S800000x1_S800000x128_1_0_0_1
        bcast_S_S800000 bcast_S800000_S800000x1_0 bcast_S_S50000x128
        (W2 m ρ c (Proc.devRef .tc main_v10)) (W2 m ρ c (Proc.devRef .tc main_v1)) (W2 m ρ c (Proc.devRef .tc main_v3)) := by
  show StableHlo.after hostOps1 (W2 m ρ c) (Proc.devRef .tc main_v20) = _
  after_results
  rfl
theorem W7_agg : W7 m ρ c (Proc.devRef .tc main_v34)
    = agg gather_S50000x128_S800000x1_S800000x128_1_0_n_n_0_1_1128 scatter_S50000x128_S800000x1_S800000x128_1_0_0_1
        bcast_S_S800000 bcast_S800000_S800000x1_0 bcast_S_S50000x128
        (W6 m ρ c (Proc.devRef .tc main_v24)) (W6 m ρ c (Proc.devRef .tc main_v1)) (W6 m ρ c (Proc.devRef .tc main_v3)) := by
  show StableHlo.after hostOps3 (W6 m ρ c) (Proc.devRef .tc main_v34) = _
  after_results
  rfl
theorem W11_agg : W11 m ρ c (Proc.devRef .tc main_v48)
    = agg gather_S50000x128_S800000x1_S800000x128_1_0_n_n_0_1_1128 scatter_S50000x128_S800000x1_S800000x128_1_0_0_1
        bcast_S_S800000 bcast_S800000_S800000x1_0 bcast_S_S50000x128
        (W10 m ρ c (Proc.devRef .tc main_v38)) (W10 m ρ c (Proc.devRef .tc main_v1)) (W10 m ρ c (Proc.devRef .tc main_v3)) := by
  show StableHlo.after hostOps5 (W10 m ρ c) (Proc.devRef .tc main_v48) = _
  after_results
  rfl
theorem W5_slab : W5 m ρ c (Proc.devRef .tc main_v23)
    = shapeCast S128x128 (extractStridedSlice S1x128x128 ![1, 0, 0] (W4 m ρ c (Proc.devRef .tc main_arg2)) slices_S3x128x128_S1x128x128_1_0_0) shapeCasts_S1x128x128_S128x128 := by
  show StableHlo.after hostOps2 (W4 m ρ c) (Proc.devRef .tc main_v23) = _
  after_results
  rfl
theorem W9_slab : W9 m ρ c (Proc.devRef .tc main_v37)
    = shapeCast S128x128 (extractStridedSlice S1x128x128 ![2, 0, 0] (W8 m ρ c (Proc.devRef .tc main_arg2)) slices_S3x128x128_S1x128x128_2_0_0) shapeCasts_S1x128x128_S128x128 := by
  show StableHlo.after hostOps4 (W8 m ρ c) (Proc.devRef .tc main_v37) = _
  after_results
  rfl

/-! ## The three layers -/

section Layers

variable
  (hmm0 : ∀ (V : (c : Dev nD) → (b : Ref sig .tc) → Buf (Elt Ideal) ((c : Thread nD τ).loc b)) (c : Dev nD),
    (dat0 (F := Ideal) V c).arrAt 2 cfg0.N = mm (V c main_arg0) (V c main_v9))
  (hmm2 : ∀ (V : (c : Dev nD) → (b : Ref sig .tc) → Buf (Elt Ideal) ((c : Thread nD τ).loc b)) (c : Dev nD),
    (dat2 (F := Ideal) V c).arrAt 2 cfg2.N = mm (V c main_v21) (V c main_v23))
  (hmm4 : ∀ (V : (c : Dev nD) → (b : Ref sig .tc) → Buf (Elt Ideal) ((c : Thread nD τ).loc b)) (c : Dev nD),
    (dat4 (F := Ideal) V c).arrAt 2 cfg4.N = mm (V c main_v35) (V c main_v37))
  (hg1 : ∀ (V : (c : Dev nD) → (b : Ref sig .tc) → Buf (Elt Ideal) ((c : Thread nD τ).loc b)) (c : Dev nD),
    (dat1 (F := Ideal) V c).arrAt 6 cfg1.N = gru (V c main_v20) (V c main_arg0) (V c main_v4) (V c main_v5) (V c main_v6) (V c main_v7))
  (hg3 : ∀ (V : (c : Dev nD) → (b : Ref sig .tc) → Buf (Elt Ideal) ((c : Thread nD τ).loc b)) (c : Dev nD),
    (dat3 (F := Ideal) V c).arrAt 6 cfg3.N = gru (V c main_v34) (V c main_v21) (V c main_v4) (V c main_v5) (V c main_v6) (V c main_v7))
  (hg5 : ∀ (V : (c : Dev nD) → (b : Ref sig .tc) → Buf (Elt Ideal) ((c : Thread nD τ).loc b)) (c : Dev nD),
    (dat5 (F := Ideal) V c).arrAt 6 cfg5.N = gru (V c main_v48) (V c main_v35) (V c main_v4) (V c main_v5) (V c main_v6) (V c main_v7))

include hmm0 hg1 in
/-- After the first cell launch its output holds the first layer of the node features. -/
theorem state1 : W4 m ρ c (Proc.devRef .tc main_v21) = step m c (slab0 m c) (m ((c : Thread nD τ).loc main_arg0)) := by
  have e20 : W3 m ρ c (Proc.devRef .tc main_v20)
      = agg gather_S50000x128_S800000x1_S800000x128_1_0_n_n_0_1_1128 scatter_S50000x128_S800000x1_S800000x128_1_0_0_1
          bcast_S_S800000 bcast_S800000_S800000x1_0 bcast_S_S50000x128
          (mm (m ((c : Thread nD τ).loc main_arg0)) (slab0 m c)) (src m c) (dst m c) := by
    rw [W3_agg, quiet_W2 m ρ c main_v1 (by decide), quiet_W2 m ρ c main_v3 (by decide), W1_src, W1_dst,
      show W2 m ρ c (Proc.devRef .tc main_v10) = (dat0 (V1 m ρ) c).arrAt 2 cfg0.N from W2_arr m ρ c 2, hmm0 (V1 m ρ) c]
    show agg _ _ _ _ _ (mm (W1 m ρ c (Proc.devRef .tc main_arg0)) (W1 m ρ c (Proc.devRef .tc main_v9))) _ _ = _
    rw [W1_arg0, W1_slab0]
  have e0 : W3 m ρ c (Proc.devRef .tc main_arg0) = m ((c : Thread nD τ).loc main_arg0) :=
    (host1_keeps m ρ c main_arg0 (by decide)).trans ((launch0_keeps m ρ c main_arg0 (by decide)).trans (W1_arg0 m ρ c))
  rw [show W4 m ρ c (Proc.devRef .tc main_v21) = (dat1 (V3 m ρ) c).arrAt 6 cfg1.N from W4_arr m ρ c 6, hg1 (V3 m ρ) c]
  show gru (W3 m ρ c (Proc.devRef .tc main_v20)) (W3 m ρ c (Proc.devRef .tc main_arg0)) (W3 m ρ c (Proc.devRef .tc main_v4))
    (W3 m ρ c (Proc.devRef .tc main_v5)) (W3 m ρ c (Proc.devRef .tc main_v6)) (W3 m ρ c (Proc.devRef .tc main_v7)) = _
  rw [e20, e0, quiet_W3 m ρ c main_v4 (by decide), quiet_W3 m ρ c main_v5 (by decide), quiet_W3 m ρ c main_v6 (by decide),
    quiet_W3 m ρ c main_v7 (by decide), W1_wi, W1_wh, W1_bi, W1_bh]
  rfl

include hmm0 hmm2 hg1 hg3 in
/-- After the second cell launch its output holds the second layer. -/
theorem state2 : W8 m ρ c (Proc.devRef .tc main_v35)
    = step m c (slab1 m c) (step m c (slab0 m c) (m ((c : Thread nD τ).loc main_arg0))) := by
  have e5 : W5 m ρ c (Proc.devRef .tc main_v21) = step m c (slab0 m c) (m ((c : Thread nD τ).loc main_arg0)) :=
    (host2_keeps m ρ c main_v21 (by decide)).trans (state1 m ρ c hmm0 hg1)
  have e23 : W5 m ρ c (Proc.devRef .tc main_v23) = slab1 m c := by
    rw [W5_slab, quiet_W4 m ρ c main_arg2 (by decide), W1_arg2]; rfl
  have e34 : W7 m ρ c (Proc.devRef .tc main_v34)
      = agg gather_S50000x128_S800000x1_S800000x128_1_0_n_n_0_1_1128 scatter_S50000x128_S800000x1_S800000x128_1_0_0_1
          bcast_S_S800000 bcast_S800000_S800000x1_0 bcast_S_S50000x128
          (mm (step m c (slab0 m c) (m ((c : Thread nD τ).loc main_arg0))) (slab1 m c)) (src m c) (dst m c) := by
    rw [W7_agg, quiet_W6 m ρ c main_v1 (by decide), quiet_W6 m ρ c main_v3 (by decide), W1_src, W1_dst,
      show W6 m ρ c (Proc.devRef .tc main_v24) = (dat2 (V5 m ρ) c).arrAt 2 cfg2.N from W6_arr m ρ c 2, hmm2 (V5 m ρ) c]
    show agg _ _ _ _ _ (mm (W5 m ρ c (Proc.devRef .tc main_v21)) (W5 m ρ c (Proc.devRef .tc main_v23))) _ _ = _
    rw [e5, e23]
  have e21 : W7 m ρ c (Proc.devRef .tc main_v21) = step m c (slab0 m c) (m ((c : Thread nD τ).loc main_arg0)) :=
    (host3_keeps m ρ c main_v21 (by decide)).trans ((launch2_keeps m ρ c main_v21 (by decide)).trans e5)
  rw [show W8 m ρ c (Proc.devRef .tc main_v35) = (dat3 (V7 m ρ) c).arrAt 6 cfg3.N from W8_arr m ρ c 6, hg3 (V7 m ρ) c]
  show gru (W7 m ρ c (Proc.devRef .tc main_v34)) (W7 m ρ c (Proc.devRef .tc main_v21)) (W7 m ρ c (Proc.devRef .tc main_v4))
    (W7 m ρ c (Proc.devRef .tc main_v5)) (W7 m ρ c (Proc.devRef .tc main_v6)) (W7 m ρ c (Proc.devRef .tc main_v7)) = _
  rw [e34, e21, quiet_W7 m ρ c main_v4 (by decide), quiet_W7 m ρ c main_v5 (by decide), quiet_W7 m ρ c main_v6 (by decide),
    quiet_W7 m ρ c main_v7 (by decide), W1_wi, W1_wh, W1_bi, W1_bh]
  rfl

include hmm0 hmm2 hmm4 hg1 hg3 hg5 in
/-- After the last launch the result buffer holds the third layer. -/
theorem result : W12 m ρ c (Proc.devRef .tc main_v49)
    = step m c (slab2 m c) (step m c (slab1 m c) (step m c (slab0 m c) (m ((c : Thread nD τ).loc main_arg0)))) := by
  have e9 : W9 m ρ c (Proc.devRef .tc main_v35)
      = step m c (slab1 m c) (step m c (slab0 m c) (m ((c : Thread nD τ).loc main_arg0))) :=
    (host4_keeps m ρ c main_v35 (by decide)).trans (state2 m ρ c hmm0 hmm2 hg1 hg3)
  have e37 : W9 m ρ c (Proc.devRef .tc main_v37) = slab2 m c := by
    rw [W9_slab, quiet_W8 m ρ c main_arg2 (by decide), W1_arg2]; rfl
  have e48 : W11 m ρ c (Proc.devRef .tc main_v48)
      = agg gather_S50000x128_S800000x1_S800000x128_1_0_n_n_0_1_1128 scatter_S50000x128_S800000x1_S800000x128_1_0_0_1
          bcast_S_S800000 bcast_S800000_S800000x1_0 bcast_S_S50000x128
          (mm (step m c (slab1 m c) (step m c (slab0 m c) (m ((c : Thread nD τ).loc main_arg0)))) (slab2 m c)) (src m c) (dst m c) := by
    rw [W11_agg, quiet_W10 m ρ c main_v1 (by decide), quiet_W10 m ρ c main_v3 (by decide), W1_src, W1_dst,
      show W10 m ρ c (Proc.devRef .tc main_v38) = (dat4 (V9 m ρ) c).arrAt 2 cfg4.N from W10_arr m ρ c 2, hmm4 (V9 m ρ) c]
    show agg _ _ _ _ _ (mm (W9 m ρ c (Proc.devRef .tc main_v35)) (W9 m ρ c (Proc.devRef .tc main_v37))) _ _ = _
    rw [e9, e37]
  have e35 : W11 m ρ c (Proc.devRef .tc main_v35)
      = step m c (slab1 m c) (step m c (slab0 m c) (m ((c : Thread nD τ).loc main_arg0))) :=
    (host5_keeps m ρ c main_v35 (by decide)).trans ((launch4_keeps m ρ c main_v35 (by decide)).trans e9)
  rw [show W12 m ρ c (Proc.devRef .tc main_v49) = (dat5 (V11 m ρ) c).arrAt 6 cfg5.N from W12_arr m ρ c 6, hg5 (V11 m ρ) c]
  show gru (W11 m ρ c (Proc.devRef .tc main_v48)) (W11 m ρ c (Proc.devRef .tc main_v35)) (W11 m ρ c (Proc.devRef .tc main_v4))
    (W11 m ρ c (Proc.devRef .tc main_v5)) (W11 m ρ c (Proc.devRef .tc main_v6)) (W11 m ρ c (Proc.devRef .tc main_v7)) = _
  rw [e48, e35, quiet_W11 m ρ c main_v4 (by decide), quiet_W11 m ρ c main_v5 (by decide), quiet_W11 m ρ c main_v6 (by decide),
    quiet_W11 m ρ c main_v7 (by decide), W1_wi, W1_wh, W1_bi, W1_bh]
  rfl

end Layers

end Cert.KernelIdeal.Boundary

end
-- ==== Proof.RefCell.lean ====
/-
  The reference's cell as it is written on the host, as three whole-array terms: a pre-activation a·w + b
  (the bias row repeated down the rows), the logistic function spelt 1/(1 + e^(−x)) with the word of 1.0 broadcast, and the
  gated update over the three bands of 128 columns of the two pre-activations.
-/
import proofs.«112620_j43748536877306_1_alg».proof.Proof.Gen.ReferenceIdeal
import proofs.«112620_j43748536877306_1_alg».proof.Proof.Layer

noncomputable section

namespace Cert.ReferenceIdeal.RefValue

open Cert.ReferenceIdeal Cert.ReferenceIdeal.Gen Idealize.ShloMosaic

/-- a·w + b, b one row repeated down the 50000 rows. -/
def pre (a : FVec Ideal S50000x128 .f32) (w : FVec Ideal S128x384 .f32) (b : FVec Ideal S1x384 .f32) : FVec Ideal S50000x384 .f32 :=
  addf (Host.dotGeneral dot_S50000x128_S128x384_S50000x384_1_0_0_1_n_n none a w) (broadcastInDim S50000x384 ![0, 1] bcast_S1x384_S50000x384_0_1 b)

/-- 1/(1 + e^(−x)), entry by entry. -/
def sigm (x : FVec Ideal S50000x128 .f32) : FVec Ideal S50000x128 .f32 :=
  Host.divf (broadcastInDim S50000x128 ![] bcast_S_S50000x128 (constant S_ .f32 0x3F800000#32)) (addf (broadcastInDim S50000x128 ![] bcast_S_S50000x128 (constant S_ .f32 0x3F800000#32)) (Host.exp (Host.negf x)))

/-- (1 − z)·n + z·h with r = σ(gi₀ + gh₀), z = σ(gi₁ + gh₁), n = tanh(gi₂ + r·gh₂). -/
def cell (gi gh : FVec Ideal S50000x384 .f32) (h : FVec Ideal S50000x128 .f32) : FVec Ideal S50000x128 .f32 :=
  addf (mulf (subf (broadcastInDim S50000x128 ![] bcast_S_S50000x128 (constant S_ .f32 0x3F800000#32)) (sigm (addf (extractStridedSlice S50000x128 ![0, 128] gi slices_S50000x384_S50000x128_0_128) (extractStridedSlice S50000x128 ![0, 128] gh slices_S50000x384_S50000x128_0_128)))) (Host.tanh (addf (extractStridedSlice S50000x128 ![0, 256] gi slices_S50000x384_S50000x128_0_256) (mulf (sigm (addf (extractStridedSlice S50000x128 ![0, 0] gi slices_S50000x384_S50000x128_0_0) (extractStridedSlice S50000x128 ![0, 0] gh slices_S50000x384_S50000x128_0_0))) (extractStridedSlice S50000x128 ![0, 256] gh slices_S50000x384_S50000x128_0_256))))) (mulf (sigm (addf (extractStridedSlice S50000x128 ![0, 128] gi slices_S50000x384_S50000x128_0_128) (extractStridedSlice S50000x128 ![0, 128] gh slices_S50000x384_S50000x128_0_128))) h)

end Cert.ReferenceIdeal.RefValue

end
-- ==== Proof.RefLayer.lean ====
/-
  The reference's whole-array terms read entry by entry on the extended reals.

  The host's product of a [50000,128] array by a [128,n] array contracts the left operand's columns with the right
  operand's rows, so its entry (p,q) is ∑ k : Fin 128, h(p,k)·W(k,q): the contraction's index set has one coordinate and
  is re-indexed by it, and the two operand indices are (p,k) and (k,q), coordinate by coordinate.  With the square
  weight this is the matrix product (dot_eq_mm).

  The cell: a pre-activation's entry (p,c) is the product's entry plus the bias row's entry (0,c); the slices at column
  offsets 0, 128, 256 read columns q, 128+q, 256+q; the word of 1.0 reads 1 at every entry; and 1/(1 + e^(−x)) is the
  logistic function by its definition.  Put together, the cell on the two pre-activations is the gated recurrent cell
  (cell_eq_gru).  No entry is assumed finite.
-/
import proofs.«112620_j43748536877306_1_alg».proof.Proof.RefCell
import Idealize.ShloMosaic.Lib.ValueIdx
import Idealize.ShloMosaic.Lib.Pipeline.Value
import Idealize.ShloMosaic.Lib.KernelVsHost
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-! ## The two products at an entry -/

/-- Row coordinate of the left operand's index at output index i: i's row. -/
theorem lhsSquare_0 (i : S50000x128.Idx) (t : dot_S50000x128_S128x128_S50000x128_1_0_0_1_n_n.contr.Idx) :
    (dot_S50000x128_S128x128_S50000x128_1_0_0_1_n_n.lhsIdx i t 0).val = (i 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl

/-- Column coordinate of the left operand's index: the contracted coordinate. -/
theorem lhsSquare_1 (i : S50000x128.Idx) (t : dot_S50000x128_S128x128_S50000x128_1_0_0_1_n_n.contr.Idx) :
    (dot_S50000x128_S128x128_S50000x128_1_0_0_1_n_n.lhsIdx i t 1).val = (t ⟨0, by decide⟩).val :=
  dot_S50000x128_S128x128_S50000x128_1_0_0_1_n_n.lhsIdx_val_of_single rfl i t

/-- Row coordinate of the right operand's index: the contracted coordinate. -/
theorem rhsSquare_0 (i : S50000x128.Idx) (t : dot_S50000x128_S128x128_S50000x128_1_0_0_1_n_n.contr.Idx) :
    (dot_S50000x128_S128x128_S50000x128_1_0_0_1_n_n.rhsIdx i t 0).val = (t ⟨0, by decide⟩).val :=
  dot_S50000x128_S128x128_S50000x128_1_0_0_1_n_n.rhsIdx_val_of_single rfl i t

/-- Column coordinate of the right operand's index at output index i: i's column. -/
theorem rhsSquare_1 (i : S50000x128.Idx) (t : dot_S50000x128_S128x128_S50000x128_1_0_0_1_n_n.contr.Idx) :
    (dot_S50000x128_S128x128_S50000x128_1_0_0_1_n_n.rhsIdx i t 1).val = (i 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

/-- Entry (p,q) of the host's product of a [50000,128] by a [128,128] array: the sum over the one contracted coordinate
    k of the products of the entries (p,k) and (k,q). -/
theorem dotSquare_apply (h : FVec Ideal S50000x128 .f32) (W : FVec Ideal S128x128 .f32) (p : Fin 50000) (q : Fin 128) :
    Host.dotGeneral (F := Ideal) dot_S50000x128_S128x128_S50000x128_1_0_0_1_n_n none h W (ix2 p q)
      = ∑ k : Fin 128, h (ix2 p k) * W (ix2 k q) := by
  show FloatOps.dotGeneral _ none _ h W (ix2 p q) = _
  rw [Ideal.dotGeneral_apply,
    ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 p q)
      ((contrEquiv1 dot_S50000x128_S128x128_S50000x128_1_0_0_1_n_n 128 rfl rfl).symm k) = ix2 p k := funext fun ax => Fin.ext (by
    match ax with
    | ⟨0, _⟩ => exact lhsSquare_0 _ _
    | ⟨1, _⟩ => exact (lhsSquare_1 _ _).trans hk)
  have er : dot_S50000x128_S128x128_S50000x128_1_0_0_1_n_n.rhsIdx (ix2 p q)
      ((contrEquiv1 dot_S50000x128_S128x128_S50000x128_1_0_0_1_n_n 128 rfl rfl).symm k) = ix2 k q := funext fun ax => Fin.ext (by
    match ax with
    | ⟨0, _⟩ => exact (rhsSquare_0 _ _).trans hk
    | ⟨1, _⟩ => exact rhsSquare_1 _ _)
  rw [el, er]

/-- Row coordinate of the left operand's index at output index i: i's row. -/
theorem lhsWide_0 (i : S50000x384.Idx) (t : dot_S50000x128_S128x384_S50000x384_1_0_0_1_n_n.contr.Idx) :
    (dot_S50000x128_S128x384_S50000x384_1_0_0_1_n_n.lhsIdx i t 0).val = (i 0).val := by
  unfold DotDims.lhsIdx
  rw [dif_neg (show ¬(0 : Fin S50000x128.rank) ∈ dot_S50000x128_S128x384_S50000x384_1_0_0_1_n_n.lhsBatch by decide),
    dif_pos (show (0 : Fin S50000x128.rank) ∈ dot_S50000x128_S128x384_S50000x384_1_0_0_1_n_n.lhsNonContracting by decide)]
  rfl

/-- Column coordinate of the left operand's index: the contracted coordinate. -/
theorem lhsWide_1 (i : S50000x384.Idx) (t : dot_S50000x128_S128x384_S50000x384_1_0_0_1_n_n.contr.Idx) :
    (dot_S50000x128_S128x384_S50000x384_1_0_0_1_n_n.lhsIdx i t 1).val = (t ⟨0, by decide⟩).val :=
  dot_S50000x128_S128x384_S50000x384_1_0_0_1_n_n.lhsIdx_val_of_single rfl i t

/-- Row coordinate of the right operand's index: the contracted coordinate. -/
theorem rhsWide_0 (i : S50000x384.Idx) (t : dot_S50000x128_S128x384_S50000x384_1_0_0_1_n_n.contr.Idx) :
    (dot_S50000x128_S128x384_S50000x384_1_0_0_1_n_n.rhsIdx i t 0).val = (t ⟨0, by decide⟩).val :=
  dot_S50000x128_S128x384_S50000x384_1_0_0_1_n_n.rhsIdx_val_of_single rfl i t

/-- Column coordinate of the right operand's index at output index i: i's column. -/
theorem rhsWide_1 (i : S50000x384.Idx) (t : dot_S50000x128_S128x384_S50000x384_1_0_0_1_n_n.contr.Idx) :
    (dot_S50000x128_S128x384_S50000x384_1_0_0_1_n_n.rhsIdx i t 1).val = (i 1).val := by
  unfold DotDims.rhsIdx
  rw [dif_neg (show ¬(1 : Fin S128x384.rank) ∈ dot_S50000x128_S128x384_S50000x384_1_0_0_1_n_n.rhsBatch by decide),
    dif_pos (show (1 : Fin S128x384.rank) ∈ dot_S50000x128_S128x384_S50000x384_1_0_0_1_n_n.rhsNonContracting by decide)]
  rfl

/-- The same for a [128,384] right operand: entry (p,c) is the sum over k of the products of the entries (p,k) and (k,c). -/
theorem dotWide_apply (a : FVec Ideal S50000x128 .f32) (w : FVec Ideal S128x384 .f32) (p : Fin 50000) (c : Fin 384) :
    Host.dotGeneral (F := Ideal) dot_S50000x128_S128x384_S50000x384_1_0_0_1_n_n none a w (ix2 p c)
      = ∑ k : Fin 128, a (ix2 p k) * w (ix2 k c) := by
  show FloatOps.dotGeneral _ none _ a w (ix2 p c) = _
  rw [Ideal.dotGeneral_apply,
    ← Equiv.sum_comp (contrEquiv1 dot_S50000x128_S128x384_S50000x384_1_0_0_1_n_n 128 rfl rfl).symm]
  refine Finset.sum_congr rfl fun k _ => ?_
  have hk := contrEquiv1_symm_val dot_S50000x128_S128x384_S50000x384_1_0_0_1_n_n 128 rfl rfl k
  have el : dot_S50000x128_S128x384_S50000x384_1_0_0_1_n_n.lhsIdx (ix2 p c)
      ((contrEquiv1 dot_S50000x128_S128x384_S50000x384_1_0_0_1_n_n 128 rfl rfl).symm k) = ix2 p k := funext fun ax => Fin.ext (by
    match ax with
    | ⟨0, _⟩ => exact lhsWide_0 _ _
    | ⟨1, _⟩ => exact (lhsWide_1 _ _).trans hk)
  have er : dot_S50000x128_S128x384_S50000x384_1_0_0_1_n_n.rhsIdx (ix2 p c)
      ((contrEquiv1 dot_S50000x128_S128x384_S50000x384_1_0_0_1_n_n 128 rfl rfl).symm k) = ix2 k c := funext fun ax => Fin.ext (by
    match ax with
    | ⟨0, _⟩ => exact (rhsWide_0 _ _).trans hk
    | ⟨1, _⟩ => exact rhsWide_1 _ _)
  rw [el, er]

/-- The host's product of the node features by a square weight is the matrix product, entry by entry. -/
theorem dot_eq_mm (h : FVec Ideal S50000x128 .f32) (W : FVec Ideal S128x128 .f32) :
    Host.dotGeneral (F := Ideal) dot_S50000x128_S128x128_S50000x128_1_0_0_1_n_n none h W = Cert.GatedLayer.mm h W := by
  funext i
  obtain ⟨p, q, rfl⟩ : ∃ (p : Fin 50000) (q : Fin 128), i = ix2 p q := ⟨i 0, i 1, eq_ix2 i⟩
  exact dotSquare_apply h W p q

/-! ## The cell at an entry -/

/-- Entry (p,c) of a pre-activation: the product's entry plus the bias row's entry (0,c), the row being repeated down
    the 50000 rows. -/
theorem pre_apply (a : FVec Ideal S50000x128 .f32) (w : FVec Ideal S128x384 .f32) (b : FVec Ideal S1x384 .f32)
    (p : Fin 50000) (c : Fin 384) : pre a w b (ix2 p c) = Cert.GatedLayer.preAt a w b p c := by
  unfold pre Cert.GatedLayer.preAt
  rw [addf_apply, dotWide_apply, broadcastInDim_oneRow_apply]

/-- The word of 1.0 spread over the array reads 1 at every entry. -/
theorem one_apply (i : S50000x128.Idx) :
    broadcastInDim S50000x128 ![] bcast_S_S50000x128 (constant (F := Ideal) S_ .f32 0x3F800000#32) i = 1 := by
  show Ideal.ofBits .f32 0x3F800000#32 = 1
  exact Cert.GatedLayer.one_word

/-- The same at an entry named by its row and column. -/
theorem one_apply2 (p : Fin 50000) (q : Fin 128) :
    broadcastInDim S50000x128 ![] bcast_S_S50000x128 (constant (F := Ideal) S_ .f32 0x3F800000#32) (ix2 p q) = 1 :=
  one_apply (ix2 p q)

/-- 1/(1 + e^(−x)) at an entry is the logistic function of the entry: that quotient is how the function is defined. -/
theorem sigm_apply (x : FVec Ideal S50000x128 .f32) (i : S50000x128.Idx) : sigm x i = Ideal.logistic (x i) := by
  unfold sigm
  show Ideal.div (broadcastInDim S50000x128 ![] bcast_S_S50000x128 (constant (F := Ideal) S_ .f32 0x3F800000#32) i)
      (broadcastInDim S50000x128 ![] bcast_S_S50000x128 (constant (F := Ideal) S_ .f32 0x3F800000#32) i + Ideal.exp (-(x i)))
    = Ideal.logistic (x i)
  rw [one_apply]
  rfl

/-- The hyperbolic tangent of an array, at an entry. -/
theorem tanh_apply (x : FVec Ideal S50000x128 .f32) (i : S50000x128.Idx) : Host.tanh x i = Ideal.tanh (x i) := rfl

/-- The first band of 128 columns: entry (p,q) of the slice at column offset 0 is the operand's entry (p,q). -/
theorem slice_lo_apply (g : FVec Ideal S50000x384 .f32) (p : Fin 50000) (q : Fin 128) :
    extractStridedSlice S50000x128 ![0, 0] g slices_S50000x384_S50000x128_0_0 (ix2 p q) = g (ix2 p (Cert.GatedLayer.lo q)) :=
  extractStridedSlice_apply ![0, 0] g slices_S50000x384_S50000x128_0_0 (ix2 p q) (ix2 p (Cert.GatedLayer.lo q)) (by
    intro ax
    match ax with
    | ⟨0, _⟩ => show p.val = 0 + p.val; omega
    | ⟨1, _⟩ => show q.val = 0 + q.val; omega)

/-- The second band: entry (p,q) of the slice at column offset 128 is the operand's entry (p,128+q). -/
theorem slice_mid_apply (g : FVec Ideal S50000x384 .f32) (p : Fin 50000) (q : Fin 128) :
    extractStridedSlice S50000x128 ![0, 128] g slices_S50000x384_S50000x128_0_128 (ix2 p q) = g (ix2 p (Cert.GatedLayer.mid q)) :=
  extractStridedSlice_apply ![0, 128] g slices_S50000x384_S50000x128_0_128 (ix2 p q) (ix2 p (Cert.GatedLayer.mid q)) (by
    intro ax
    match ax with
    | ⟨0, _⟩ => show p.val = 0 + p.val; omega
    | ⟨1, _⟩ => show 128 + q.val = 128 + q.val; rfl)

/-- The third band: entry (p,q) of the slice at column offset 256 is the operand's entry (p,256+q). -/
theorem slice_hi_apply (g : FVec Ideal S50000x384 .f32) (p : Fin 50000) (q : Fin 128) :
    extractStridedSlice S50000x128 ![0, 256] g slices_S50000x384_S50000x128_0_256 (ix2 p q) = g (ix2 p (Cert.GatedLayer.hi q)) :=
  extractStridedSlice_apply ![0, 256] g slices_S50000x384_S50000x128_0_256 (ix2 p q) (ix2 p (Cert.GatedLayer.hi q)) (by
    intro ax
    match ax with
    | ⟨0, _⟩ => show p.val = 0 + p.val; omega
    | ⟨1, _⟩ => show 256 + q.val = 256 + q.val; rfl)

/-- Entry (p,q) of the gated update of two 384-column pre-activations gi, gh and the old state h: with
    r = σ(gi₀ + gh₀), z = σ(gi₁ + gh₁), n = tanh(gi₂ + r·gh₂) read in the three bands at columns q, 128+q, 256+q,
    it is (1 − z)·n + z·h. -/
theorem cell_apply (gi gh : FVec Ideal S50000x384 .f32) (h : FVec Ideal S50000x128 .f32) (p : Fin 50000) (q : Fin 128) :
    cell gi gh h (ix2 p q)
      = (1 - Ideal.logistic (gi (ix2 p (Cert.GatedLayer.mid q)) + gh (ix2 p (Cert.GatedLayer.mid q))))
          * Ideal.tanh (gi (ix2 p (Cert.GatedLayer.hi q))
              + Ideal.logistic (gi (ix2 p (Cert.GatedLayer.lo q)) + gh (ix2 p (Cert.GatedLayer.lo q)))
                * gh (ix2 p (Cert.GatedLayer.hi q)))
        + Ideal.logistic (gi (ix2 p (Cert.GatedLayer.mid q)) + gh (ix2 p (Cert.GatedLayer.mid q))) * h (ix2 p q) := by
  unfold cell
  simp only [addf_apply, mulf_apply, subf_apply, tanh_apply, sigm_apply,
    slice_lo_apply, slice_mid_apply, slice_hi_apply]
  rw [one_apply2]

/-- The reference's cell on the two pre-activations is the gated recurrent cell, entry by entry. -/
theorem cell_eq_gru (a h : FVec Ideal S50000x128 .f32) (wi wh : FVec Ideal S128x384 .f32) (bi bh : FVec Ideal S1x384 .f32) :
    cell (pre a wi bi) (pre h wh bh) h = Cert.GatedLayer.gru a h wi wh bi bh := by
  funext i
  obtain ⟨p, q, rfl⟩ : ∃ (p : Fin 50000) (q : Fin 128), i = ix2 p q := ⟨i 0, i 1, eq_ix2 i⟩
  show _ = Cert.GatedLayer.gruAt a h wi wh bi bh p q
  unfold Cert.GatedLayer.gruAt
  rw [cell_apply]
  simp only [pre_apply]

end Cert.ReferenceIdeal.RefValue

end
-- ==== Proof.RefRun.lean ====
/-
  The reference program's result as three layers of the gated graph convolution.

  The reference is one straight line of host operations.  Its run's term, with the named intermediate results opened,
  is three nested copies of one term: the layer's message product, the gather at the source words and the scatter-add
  at the destination words, the two pre-activations and the cell.  Each copy is a layer of the specification once the
  message product is read as the sum it is and the cell entry by entry.
-/
import proofs.«112620_j43748536877306_1_alg».proof.Proof.Gen.ReferenceIdeal.Run
import proofs.«112620_j43748536877306_1_alg».proof.Proof.RefLayer

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo
open Cert.GatedLayer (mm gru agg layer)

variable (m : (ℓ : Loc nD τ sig) → Buf (Elt Ideal) ℓ) (c : Dev nD)

/-! ## The quantities every layer shares -/

/-- The edges' source words: row 0 of the edge array. -/
def src : IVec S800000 32 :=
  shapeCast S800000 (extractStridedSlice S1x800000 ![0, 0] (m ((c.tc : Thread nD τ).loc main_arg1)) slices_S2x800000_S1x800000_0_0) shapeCasts_S1x800000_S800000
/-- The edges' destination words: row 1 of the edge array. -/
def dst : IVec S800000 32 :=
  shapeCast S800000 (extractStridedSlice S1x800000 ![1, 0] (m ((c.tc : Thread nD τ).loc main_arg1)) slices_S2x800000_S1x800000_1_0) shapeCasts_S1x800000_S800000
/-- The input cell weight, transposed. -/
def wi : FVec Ideal S128x384 .f32 := transpose S128x384 [1, 0] (m ((c.tc : Thread nD τ).loc main_arg3)) transposes_S384x128_S128x384_1_0
/-- The hidden cell weight, transposed. -/
def wh : FVec Ideal S128x384 .f32 := transpose S128x384 [1, 0] (m ((c.tc : Thread nD τ).loc main_arg4)) transposes_S384x128_S128x384_1_0
/-- The input cell bias along the columns of one row. -/
def bi : FVec Ideal S1x384 .f32 := broadcastInDim S1x384 ![1] bcast_S384_S1x384_1 (m ((c.tc : Thread nD τ).loc main_arg5))
/-- The hidden cell bias along the columns of one row. -/
def bh : FVec Ideal S1x384 .f32 := broadcastInDim S1x384 ![1] bcast_S384_S1x384_1 (m ((c.tc : Thread nD τ).loc main_arg6))
/-- The first layer's message weight: slab 0 of the stack. -/
def slab0 : FVec Ideal S128x128 .f32 :=
  shapeCast S128x128 (extractStridedSlice S1x128x128 ![0, 0, 0] (m ((c.tc : Thread nD τ).loc main_arg2)) slices_S3x128x128_S1x128x128_0_0_0) shapeCasts_S1x128x128_S128x128
/-- The second layer's message weight: slab 1. -/
def slab1 : FVec Ideal S128x128 .f32 :=
  shapeCast S128x128 (extractStridedSlice S1x128x128 ![1, 0, 0] (m ((c.tc : Thread nD τ).loc main_arg2)) slices_S3x128x128_S1x128x128_1_0_0) shapeCasts_S1x128x128_S128x128
/-- The third layer's message weight: slab 2. -/
def slab2 : FVec Ideal S128x128 .f32 :=
  shapeCast S128x128 (extractStridedSlice S1x128x128 ![2, 0, 0] (m ((c.tc : Thread nD τ).loc main_arg2)) slices_S3x128x128_S1x128x128_2_0_0) shapeCasts_S1x128x128_S128x128

/-- One layer as the host operations spell it. -/
def hostLayer (W : FVec Ideal S128x128 .f32) (h : FVec Ideal S50000x128 .f32) : FVec Ideal S50000x128 .f32 :=
  cell
    (pre (Host.scatterAdd scatter_S50000x128_S800000x1_S800000x128_1_0_0_1
        (broadcastInDim S50000x128 ![] bcast_S_S50000x128 (constant S_ .f32 0x00000000#32))
        (broadcastInDim S800000x1 ![0] bcast_S800000_S800000x1_0 (dst m c))
        (Host.gather gather_S50000x128_S800000x1_S800000x128_1_0_n_n_0_1_1128
          (Host.dotGeneral dot_S50000x128_S128x128_S50000x128_1_0_0_1_n_n none h W)
          (broadcastInDim S800000x1 ![0] bcast_S800000_S800000x1_0
            (select (cmpi .slt (src m c) (broadcastInDim S800000 ![] bcast_S_S800000 (constantI S_ 32 0#32)))
              (addi (src m c) (broadcastInDim S800000 ![] bcast_S_S800000 (constantI S_ 32 50000#32))) (src m c)))))
      (wi m c) (bi m c))
    (pre h (wh m c) (bh m c)) h

/-- One layer of the specification with this program's edge words, cell weights and biases. -/
def step (W : FVec Ideal S128x128 .f32) (h : FVec Ideal S50000x128 .f32) : FVec Ideal S50000x128 .f32 :=
  layer gather_S50000x128_S800000x1_S800000x128_1_0_n_n_0_1_1128 scatter_S50000x128_S800000x1_S800000x128_1_0_0_1
    bcast_S_S800000 bcast_S800000_S800000x1_0 bcast_S_S50000x128
    (src m c) (dst m c) (wi m c) (wh m c) (bi m c) (bh m c) W h

/-! ## The run's term is three host layers -/

/-- The result term of the reference's run, its named intermediate results opened. -/
theorem result_eq_hostLayers :
    addf (mulf (subf (broadcastInDim S50000x128 ![] bcast_S_S50000x128 (constant S_ .f32 0x3F800000#32)) (res_main_v148 (launchContents m c))) (Host.tanh (addf (extractStridedSlice S50000x128 ![0, 256] (res_main_v123 (launchContents m c)) slices_S50000x384_S50000x128_0_256) (mulf (Host.divf (broadcastInDim S50000x128 ![] bcast_S_S50000x128 (constant S_ .f32 0x3F800000#32)) (addf (broadcastInDim S50000x128 ![] bcast_S_S50000x128 (constant S_ .f32 0x3F800000#32)) (Host.exp (Host.negf (addf (extractStridedSlice S50000x128 ![0, 0] (res_main_v123 (launchContents m c)) slices_S50000x384_S50000x128_0_0) (extractStridedSlice S50000x128 ![0, 0] (res_main_v128 (launchContents m c)) slices_S50000x384_S50000x128_0_0)))))) (extractStridedSlice S50000x128 ![0, 256] (res_main_v128 (launchContents m c)) slices_S50000x384_S50000x128_0_256))))) (mulf (res_main_v148 (launchContents m c)) (res_main_v105 (launchContents m c)))
      = hostLayer m c (slab2 m c) (hostLayer m c (slab1 m c) (hostLayer m c (slab0 m c) (m ((c.tc : Thread nD τ).loc main_arg0)))) := by
  have e54 : res_main_v54 (F := Ideal) (launchContents m c) = hostLayer m c (slab0 m c) (m ((c.tc : Thread nD τ).loc main_arg0)) := rfl
  have e105 : res_main_v105 (F := Ideal) (launchContents m c) = hostLayer m c (slab1 m c) (res_main_v54 (launchContents m c)) := rfl
  refine Eq.trans (b := hostLayer m c (slab2 m c) (res_main_v105 (F := Ideal) (launchContents m c))) rfl ?_
  rw [e105, e54]

/-! ## A host layer is a layer -/

theorem hostLayer_eq_step (W : FVec Ideal S128x128 .f32) (h : FVec Ideal S50000x128 .f32) :
    hostLayer m c W h = step m c W h := by
  unfold hostLayer step layer
  rw [dot_eq_mm, cell_eq_gru]
  rfl

end Cert.ReferenceIdeal.RefValue

end
-- ==== Proof.MatmulBlock.lean ====
/-
  One block of the message product.

  The product kernel multiplies a block of 2000 rows of the node features (128 channels) by the whole square weight,
  into a zero accumulator.  On the extended reals the two narrowing casts and the reshape to the same shape are the
  identity, so entry (p,q) of the result is the plain sum over the 128 channels k of x(p,k) * w(k,q).  The second and
  third launches of the kernel reshape the row block to its own shape first; the entry is the same sum.
-/
import proofs.«112620_j43748536877306_1_alg».proof.Proof.Layer
import proofs.«112620_j43748536877306_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.RegionValue

open Cert.KernelIdeal Cert.KernelIdeal.Gen Idealize.ShloMosaic Idealize.ShloMosaic.ValueIdx

/-- The corner every load and store of the kernel starts at: offset zero on both axes. -/
theorem corner_zero : (![0, 0] : Fin 2 → Nat) = fun _ => 0 := funext fun a => by fin_cases a <;> rfl

/-- Entry i of the whole-array product, with i's coordinates named: the sum over the channels. -/
theorem mm_at (h : FVec Ideal Cert.GatedLayer.Nodes .f32) (W : FVec Ideal Cert.GatedLayer.Square .f32)
    (i : Cert.GatedLayer.Nodes.Idx) (r : Fin 50000) (q : Fin 128) (h0 : (i 0).val = r.val) (h1 : (i 1).val = q.val) :
    Cert.GatedLayer.mm h W i = ∑ k : Fin 128, h (ix2 r k) * W (ix2 k q) := by
  have e : i = ix2 r q := by
    funext a; apply Fin.ext
    match a with
    | ⟨0, _⟩ => exact h0
    | ⟨1, _⟩ => exact h1
  subst e; rfl

/-- The product's dimension record: rows by channels times channels by columns, one contracted axis of extent 128. -/
abbrev rowsByWeight : DotDims S2000x128 S128x128 S2000x128 := dot_S2000x128_S128x128_S2000x128_1_0_0_1_n_n

/-- The left operand's row coordinate is the output's row, whatever the contraction position. -/
theorem left_row (i : S2000x128.Idx) (c : rowsByWeight.contr.Idx) : (rowsByWeight.lhsIdx i c 0).val = (i 0).val := by
  unfold DotDims.lhsIdx
  rw [dif_neg (show ¬(0 : Fin S2000x128.rank) ∈ rowsByWeight.lhsBatch by decide),
    dif_pos (show (0 : Fin S2000x128.rank) ∈ rowsByWeight.lhsNonContracting by decide)]
  rfl

/-- The left operand's column coordinate is the contraction position. -/
theorem left_col (i : S2000x128.Idx) (c : rowsByWeight.contr.Idx) :
    (rowsByWeight.lhsIdx i c 1).val = (c ⟨0, by decide⟩).val :=
  rowsByWeight.lhsIdx_val_of_single rfl i c

/-- The right operand's row coordinate is the contraction position. -/
theorem right_row (i : S2000x128.Idx) (c : rowsByWeight.contr.Idx) :
    (rowsByWeight.rhsIdx i c 0).val = (c ⟨0, by decide⟩).val :=
  rowsByWeight.rhsIdx_val_of_single rfl i c

/-- The right operand's column coordinate is the output's column, whatever the contraction position. -/
theorem right_col (i : S2000x128.Idx) (c : rowsByWeight.contr.Idx) : (rowsByWeight.rhsIdx i c 1).val = (i 1).val := by
  unfold DotDims.rhsIdx
  rw [dif_neg (show ¬(1 : Fin S128x128.rank) ∈ rowsByWeight.rhsBatch by decide),
    dif_pos (show (1 : Fin S128x128.rank) ∈ rowsByWeight.rhsNonContracting by decide)]
  rfl

/-- The left operand's index at output (p,q) and contraction position k is (p,k). -/
theorem left_index (p : Fin 2000) (q : Fin 128) (k : Fin 128) :
    rowsByWeight.lhsIdx (ix2 p q) ((contrEquiv1 rowsByWeight 128 rfl rfl).symm k) = ix2 p k := by
  have hk := contrEquiv1_symm_val rowsByWeight 128 rfl rfl k
  funext a; apply Fin.ext
  match a with
  | ⟨0, _⟩ => exact left_row _ _
  | ⟨1, _⟩ => exact (left_col _ _).trans hk

/-- The right operand's index at output (p,q) and contraction position k is (k,q). -/
theorem right_index (p : Fin 2000) (q : Fin 128) (k : Fin 128) :
    rowsByWeight.rhsIdx (ix2 p q) ((contrEquiv1 rowsByWeight 128 rfl rfl).symm k) = ix2 k q := by
  have hk := contrEquiv1_symm_val rowsByWeight 128 rfl rfl k
  funext a; apply Fin.ext
  match a with
  | ⟨0, _⟩ => exact (right_row _ _).trans hk
  | ⟨1, _⟩ => exact right_col _ _

/-- The block product into the zero accumulator, entry (p,q): the sum over the channels. -/
theorem product_apply (A : FVec Ideal S2000x128 .bf16) (B : FVec Ideal S128x128 .bf16) (p : Fin 2000) (q : Fin 128) :
    matmul (F := Ideal) rowsByWeight none A B (constant (F := Ideal) S2000x128 .f32 0x00000000#32) (ix2 p q)
      = ∑ k : Fin 128, A (ix2 p k) * B (ix2 k q) := by
  show FloatOps.matmul rowsByWeight none A B _ (ix2 p q) = _
  rw [Ideal.matmul_constant_zero_apply, ← Equiv.sum_comp (contrEquiv1 rowsByWeight 128 rfl rfl).symm]
  refine Finset.sum_congr rfl fun k _ => ?_
  rw [left_index, right_index]

/-- The first launch's payload, entry (p,q): the sum over the channels k of x0(p,k) * x1(k,q). -/
theorem block0_apply (x0 : Vec Ideal S2000x128 .f32) (x1 : Vec Ideal S128x128 .f32) (p : Fin 2000) (q : Fin 128) :
    k0_pay1 x0 x1 (ix2 p q) = ∑ k : Fin 128, x0 (ix2 p k) * x1 (ix2 k q) := by
  unfold k0_pay1
  rw [shapeCast_self]
  exact product_apply _ _ p q

/-- The second launch's payload, entry (p,q): the same sum (the row block is first reshaped to its own shape). -/
theorem block2_apply (x0 : Vec Ideal S2000x128 .f32) (x1 : Vec Ideal S128x128 .f32) (p : Fin 2000) (q : Fin 128) :
    k2_pay1 x0 x1 (ix2 p q) = ∑ k : Fin 128, x0 (ix2 p k) * x1 (ix2 k q) := by
  unfold k2_pay1
  rw [shapeCast_self, shapeCast_self]
  exact product_apply _ _ p q

/-- The third launch's payload is the second's, term for term. -/
theorem block4_eq : @k4_pay1 Ideal _ = @k2_pay1 Ideal _ := rfl

/-- The third launch's payload, entry (p,q): the same sum. -/
theorem block4_apply (x0 : Vec Ideal S2000x128 .f32) (x1 : Vec Ideal S128x128 .f32) (p : Fin 2000) (q : Fin 128) :
    k4_pay1 x0 x1 (ix2 p q) = ∑ k : Fin 128, x0 (ix2 p k) * x1 (ix2 k q) := by
  rw [block4_eq]; exact block2_apply x0 x1 p q

end Cert.KernelIdeal.RegionValue

end
-- ==== Proof.MatmulValue0.lean ====
/-
  The first launch of the product kernel, as a whole array.

  The grid has 25 points.  Point t reads rows 2000·t … 2000·t + 1999 of the node features and the whole weight, and
  writes the block product to the same rows of the output.  A block's element sits in its array at block index times
  block size plus its coordinate inside the block, so entry (p,q) of the block written at t is entry (2000·t + p, q)
  of the whole product; the 25 row blocks tile the 50000 rows (row r lies in the block of point r / 2000), so the
  output array ends holding the whole product.
-/
import proofs.«112620_j43748536877306_1_alg».proof.Proof.MatmulBlock
import proofs.«112620_j43748536877306_1_alg».proof.Proof.Gen.KernelIdeal.Frame
import proofs.«112620_j43748536877306_1_alg».proof.Proof.Layer
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem Idealize.ShloMosaic.Pipeline
open Idealize.ShloMosaic.ValueIdx

variable (V : (c : Dev nD) → (b : Ref sig .tc) → Buf (Elt Ideal) ((c : Thread nD τ).loc b))

/-- The three index maps over the grid: the row blocks of the features and of the output move with the point, the
    weight's block stays at the origin. -/
theorem block_indices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point t is rows 2000·t … of the feature array. -/
theorem rows_block0 (c : Dev nD) (t : Fin cfg0.N) (x : S2000x128.Idx) (i : S50000x128.Idx)
    (h0 : (i 0).val = 2000 * t.val + (x 0).val) (h1 : (i 1).val = (x 1).val) :
    (iblk0 V c 0 t : Vec Ideal S2000x128 .f32) x = (V c main_arg0 : S50000x128.Idx → Elt Ideal .f32) i := by
  obtain ⟨e0, e1, -⟩ := block_indices0 t
  unfold iblk0
  rw [View.read_apply]
  show V c main_arg0 _ = V c main_arg0 _
  congr 1
  funext a; apply Fin.ext
  match a with
  | ⟨0, _⟩ => show win0_0.index t 0 * 2000 + 1 * (x 0).val = (i 0).val; rw [e0, h0]; omega
  | ⟨1, _⟩ => show win0_0.index t 1 * 128 + 1 * (x 1).val = (i 1).val; rw [e1, h1]; omega

/-- The weight block at every point is the whole weight. -/
theorem weight_block0 (c : Dev nD) (t : Fin cfg0.N) (x : S128x128.Idx) :
    (iblk0 V c 1 t : Vec Ideal S128x128 .f32) x = (V c main_v9 : S128x128.Idx → Elt Ideal .f32) x := by
  obtain ⟨-, -, e0, e1, -⟩ := block_indices0 t
  unfold iblk0
  rw [View.read_apply]
  show V c main_v9 _ = V c main_v9 _
  congr 1
  funext a; apply Fin.ext
  match a with
  | ⟨0, _⟩ => show win0_1.index t 0 * 128 + 1 * (x 0).val = (x 0).val; rw [e0]; omega
  | ⟨1, _⟩ => show win0_1.index t 1 * 128 + 1 * (x 1).val = (x 1).val; rw [e1]; omega

/-- What point t writes back is its row block of the whole product. -/
theorem written0 (c : Dev nD) (t : Fin cfg0.N) :
    (dat0 (F := Ideal) V c).flushed 2 t
      = ((cfg0.win 2).blk t).view.read (Elt Ideal) (Cert.GatedLayer.mm (V c main_arg0) (V c main_v9)) := by
  show (cfg0.win 2).cut (grid0.coords t) ((dat0 V c).after 2 t) = _
  rw [after0_2]
  unfold out0_2
  rw [View.canon_unit_zero corner_zero]
  simp only [View.ld_unit_zero (S := S2000x128) corner_zero, View.ld_unit_zero (S := S128x128) corner_zero]
  obtain ⟨-, -, -, -, e0, e1⟩ := block_indices0 t
  have hN : t.val < 25 := lt_of_lt_of_eq t.isLt N_0
  funext y
  obtain ⟨p, q, rfl⟩ : ∃ (p : Fin 2000) (q : Fin 128), y = ix2 p q := ⟨y 0, y 1, eq_ix2 y⟩
  show k0_pay1 (iblk0 V c 0 t) (iblk0 V c 1 t) (ix2 p q)
    = Cert.GatedLayer.mm (V c main_arg0) (V c main_v9) (((cfg0.win 2).blk t).view.emb (ix2 p q))
  rw [block0_apply]
  refine Eq.trans ?_ (mm_at _ _ _ ⟨2000 * t.val + p.val, by have := p.isLt; omega⟩ q ?_ ?_).symm
  · refine Finset.sum_congr rfl fun k _ => ?_
    rw [rows_block0 V c t (ix2 p k) (ix2 ⟨2000 * t.val + p.val, by have := p.isLt; omega⟩ k) rfl rfl,
      weight_block0 V c t (ix2 k q)]
  · show win0_2.index t 0 * 2000 + 1 * p.val = 2000 * t.val + p.val; rw [e0]; omega
  · show win0_2.index t 1 * 128 + 1 * q.val = q.val; rw [e1]; omega

/-- Row r of the output lies in the block of point r / 2000. -/
theorem rows_covered0 (i : S50000x128.Idx) :
    ∃ t : Fin cfg0.N, (cfg0.win 2).flush t = true ∧ i ∈ ((cfg0.win 2).blk t).view.set := by
  have h0 : (i 0).val < 50000 := (i 0).isLt
  have h1 : (i 1).val < 128 := (i 1).isLt
  have hlt : (i 0).val / 2000 < cfg0.N := lt_of_lt_of_eq (by omega : (i 0).val / 2000 < 25) N_0.symm
  obtain ⟨t, ht⟩ : ∃ t : Fin cfg0.N, t.val = (i 0).val / 2000 := ⟨⟨(i 0).val / 2000, hlt⟩, rfl⟩
  obtain ⟨-, -, -, -, e0, e1⟩ := block_indices0 t
  refine ⟨t, flush0_2 t, ?_⟩
  show i ∈ ((View.whole main_v10).slice (win0_2.rect t)).set
  rw [View.set_slice_whole, Rect.mem_set_unit]
  intro a
  match a with
  | ⟨0, _⟩ =>
    show win0_2.index t 0 * 2000 ≤ (i 0).val ∧ (i 0).val < win0_2.index t 0 * 2000 + 2000
    rw [e0, ht]; omega
  | ⟨1, _⟩ =>
    show win0_2.index t 1 * 128 ≤ (i 1).val ∧ (i 1).val < win0_2.index t 1 * 128 + 128
    rw [e1]; omega

/-- After the first launch the output array is the whole product of the two input arrays as the launch finds them. -/
theorem mm_final0 (c : Dev nD) :
    (dat0 (F := Ideal) V c).arrAt 2 cfg0.N = Cert.GatedLayer.mm (V c main_arg0) (V c main_v9) :=
  (dat0 V c).arrAt_eq_of_cover 2 (Cert.GatedLayer.mm (V c main_arg0) (V c main_v9))
    (fun t _ => written0 V c t) rows_covered0

end Cert.KernelIdeal.RegionValue

end
-- ==== Proof.MatmulValue2.lean ====
/-
  The second launch of the product kernel, as a whole array.

  The grid has 25 points.  Point t reads rows 2000·t … 2000·t + 1999 of the node features and the whole weight, and
  writes the block product to the same rows of the output.  A block's element sits in its array at block index times
  block size plus its coordinate inside the block, so entry (p,q) of the block written at t is entry (2000·t + p, q)
  of the whole product; the 25 row blocks tile the 50000 rows (row r lies in the block of point r / 2000), so the
  output array ends holding the whole product.
-/
import proofs.«112620_j43748536877306_1_alg».proof.Proof.MatmulBlock
import proofs.«112620_j43748536877306_1_alg».proof.Proof.Gen.KernelIdeal.Frame
import proofs.«112620_j43748536877306_1_alg».proof.Proof.Layer
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem Idealize.ShloMosaic.Pipeline
open Idealize.ShloMosaic.ValueIdx

variable (V : (c : Dev nD) → (b : Ref sig .tc) → Buf (Elt Ideal) ((c : Thread nD τ).loc b))

/-- The three index maps over the grid: the row blocks of the features and of the output move with the point, the
    weight's block stays at the origin. -/
theorem block_indices2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The feature block at point t is rows 2000·t … of the feature array. -/
theorem rows_block2 (c : Dev nD) (t : Fin cfg2.N) (x : S2000x128.Idx) (i : S50000x128.Idx)
    (h0 : (i 0).val = 2000 * t.val + (x 0).val) (h1 : (i 1).val = (x 1).val) :
    (iblk2 V c 0 t : Vec Ideal S2000x128 .f32) x = (V c main_v21 : S50000x128.Idx → Elt Ideal .f32) i := by
  obtain ⟨e0, e1, -⟩ := block_indices2 t
  unfold iblk2
  rw [View.read_apply]
  show V c main_v21 _ = V c main_v21 _
  congr 1
  funext a; apply Fin.ext
  match a with
  | ⟨0, _⟩ => show win2_0.index t 0 * 2000 + 1 * (x 0).val = (i 0).val; rw [e0, h0]; omega
  | ⟨1, _⟩ => show win2_0.index t 1 * 128 + 1 * (x 1).val = (i 1).val; rw [e1, h1]; omega

/-- The weight block at every point is the whole weight. -/
theorem weight_block2 (c : Dev nD) (t : Fin cfg2.N) (x : S128x128.Idx) :
    (iblk2 V c 1 t : Vec Ideal S128x128 .f32) x = (V c main_v23 : S128x128.Idx → Elt Ideal .f32) x := by
  obtain ⟨-, -, e0, e1, -⟩ := block_indices2 t
  unfold iblk2
  rw [View.read_apply]
  show V c main_v23 _ = V c main_v23 _
  congr 1
  funext a; apply Fin.ext
  match a with
  | ⟨0, _⟩ => show win2_1.index t 0 * 128 + 1 * (x 0).val = (x 0).val; rw [e0]; omega
  | ⟨1, _⟩ => show win2_1.index t 1 * 128 + 1 * (x 1).val = (x 1).val; rw [e1]; omega

/-- What point t writes back is its row block of the whole product. -/
theorem written2 (c : Dev nD) (t : Fin cfg2.N) :
    (dat2 (F := Ideal) V c).flushed 2 t
      = ((cfg2.win 2).blk t).view.read (Elt Ideal) (Cert.GatedLayer.mm (V c main_v21) (V c main_v23)) := by
  show (cfg2.win 2).cut (grid2.coords t) ((dat2 V c).after 2 t) = _
  rw [after2_2]
  unfold out2_2
  rw [View.canon_unit_zero corner_zero]
  simp only [View.ld_unit_zero (S := S2000x128) corner_zero, View.ld_unit_zero (S := S128x128) corner_zero]
  obtain ⟨-, -, -, -, e0, e1⟩ := block_indices2 t
  have hN : t.val < 25 := lt_of_lt_of_eq t.isLt N_2
  funext y
  obtain ⟨p, q, rfl⟩ : ∃ (p : Fin 2000) (q : Fin 128), y = ix2 p q := ⟨y 0, y 1, eq_ix2 y⟩
  show k2_pay1 (iblk2 V c 0 t) (iblk2 V c 1 t) (ix2 p q)
    = Cert.GatedLayer.mm (V c main_v21) (V c main_v23) (((cfg2.win 2).blk t).view.emb (ix2 p q))
  rw [block2_apply]
  refine Eq.trans ?_ (mm_at _ _ _ ⟨2000 * t.val + p.val, by have := p.isLt; omega⟩ q ?_ ?_).symm
  · refine Finset.sum_congr rfl fun k _ => ?_
    rw [rows_block2 V c t (ix2 p k) (ix2 ⟨2000 * t.val + p.val, by have := p.isLt; omega⟩ k) rfl rfl,
      weight_block2 V c t (ix2 k q)]
  · show win2_2.index t 0 * 2000 + 1 * p.val = 2000 * t.val + p.val; rw [e0]; omega
  · show win2_2.index t 1 * 128 + 1 * q.val = q.val; rw [e1]; omega

/-- Row r of the output lies in the block of point r / 2000. -/
theorem rows_covered2 (i : S50000x128.Idx) :
    ∃ t : Fin cfg2.N, (cfg2.win 2).flush t = true ∧ i ∈ ((cfg2.win 2).blk t).view.set := by
  have h0 : (i 0).val < 50000 := (i 0).isLt
  have h1 : (i 1).val < 128 := (i 1).isLt
  have hlt : (i 0).val / 2000 < cfg2.N := lt_of_lt_of_eq (by omega : (i 0).val / 2000 < 25) N_2.symm
  obtain ⟨t, ht⟩ : ∃ t : Fin cfg2.N, t.val = (i 0).val / 2000 := ⟨⟨(i 0).val / 2000, hlt⟩, rfl⟩
  obtain ⟨-, -, -, -, e0, e1⟩ := block_indices2 t
  refine ⟨t, flush2_2 t, ?_⟩
  show i ∈ ((View.whole main_v24).slice (win2_2.rect t)).set
  rw [View.set_slice_whole, Rect.mem_set_unit]
  intro a
  match a with
  | ⟨0, _⟩ =>
    show win2_2.index t 0 * 2000 ≤ (i 0).val ∧ (i 0).val < win2_2.index t 0 * 2000 + 2000
    rw [e0, ht]; omega
  | ⟨1, _⟩ =>
    show win2_2.index t 1 * 128 ≤ (i 1).val ∧ (i 1).val < win2_2.index t 1 * 128 + 128
    rw [e1]; omega

/-- After the second launch the output array is the whole product of the two input arrays as the launch finds them. -/
theorem mm_final2 (c : Dev nD) :
    (dat2 (F := Ideal) V c).arrAt 2 cfg2.N = Cert.GatedLayer.mm (V c main_v21) (V c main_v23) :=
  (dat2 V c).arrAt_eq_of_cover 2 (Cert.GatedLayer.mm (V c main_v21) (V c main_v23))
    (fun t _ => written2 V c t) rows_covered2

end Cert.KernelIdeal.RegionValue

end
-- ==== Proof.MatmulValue4.lean ====
/-
  The third launch of the product kernel, as a whole array.

  The grid has 25 points.  Point t reads rows 2000·t … 2000·t + 1999 of the node features and the whole weight, and
  writes the block product to the same rows of the output.  A block's element sits in its array at block index times
  block size plus its coordinate inside the block, so entry (p,q) of the block written at t is entry (2000·t + p, q)
  of the whole product; the 25 row blocks tile the 50000 rows (row r lies in the block of point r / 2000), so the
  output array ends holding the whole product.
-/
import proofs.«112620_j43748536877306_1_alg».proof.Proof.MatmulBlock
import proofs.«112620_j43748536877306_1_alg».proof.Proof.Gen.KernelIdeal.Frame
import proofs.«112620_j43748536877306_1_alg».proof.Proof.Layer
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem Idealize.ShloMosaic.Pipeline
open Idealize.ShloMosaic.ValueIdx

variable (V : (c : Dev nD) → (b : Ref sig .tc) → Buf (Elt Ideal) ((c : Thread nD τ).loc b))

/-- The three index maps over the grid: the row blocks of the features and of the output move with the point, the
    weight's block stays at the origin. -/
theorem block_indices4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The feature block at point t is rows 2000·t … of the feature array. -/
theorem rows_block4 (c : Dev nD) (t : Fin cfg4.N) (x : S2000x128.Idx) (i : S50000x128.Idx)
    (h0 : (i 0).val = 2000 * t.val + (x 0).val) (h1 : (i 1).val = (x 1).val) :
    (iblk4 V c 0 t : Vec Ideal S2000x128 .f32) x = (V c main_v35 : S50000x128.Idx → Elt Ideal .f32) i := by
  obtain ⟨e0, e1, -⟩ := block_indices4 t
  unfold iblk4
  rw [View.read_apply]
  show V c main_v35 _ = V c main_v35 _
  congr 1
  funext a; apply Fin.ext
  match a with
  | ⟨0, _⟩ => show win4_0.index t 0 * 2000 + 1 * (x 0).val = (i 0).val; rw [e0, h0]; omega
  | ⟨1, _⟩ => show win4_0.index t 1 * 128 + 1 * (x 1).val = (i 1).val; rw [e1, h1]; omega

/-- The weight block at every point is the whole weight. -/
theorem weight_block4 (c : Dev nD) (t : Fin cfg4.N) (x : S128x128.Idx) :
    (iblk4 V c 1 t : Vec Ideal S128x128 .f32) x = (V c main_v37 : S128x128.Idx → Elt Ideal .f32) x := by
  obtain ⟨-, -, e0, e1, -⟩ := block_indices4 t
  unfold iblk4
  rw [View.read_apply]
  show V c main_v37 _ = V c main_v37 _
  congr 1
  funext a; apply Fin.ext
  match a with
  | ⟨0, _⟩ => show win4_1.index t 0 * 128 + 1 * (x 0).val = (x 0).val; rw [e0]; omega
  | ⟨1, _⟩ => show win4_1.index t 1 * 128 + 1 * (x 1).val = (x 1).val; rw [e1]; omega

/-- What point t writes back is its row block of the whole product. -/
theorem written4 (c : Dev nD) (t : Fin cfg4.N) :
    (dat4 (F := Ideal) V c).flushed 2 t
      = ((cfg4.win 2).blk t).view.read (Elt Ideal) (Cert.GatedLayer.mm (V c main_v35) (V c main_v37)) := by
  show (cfg4.win 2).cut (grid4.coords t) ((dat4 V c).after 2 t) = _
  rw [after4_2]
  unfold out4_2
  rw [View.canon_unit_zero corner_zero]
  simp only [View.ld_unit_zero (S := S2000x128) corner_zero, View.ld_unit_zero (S := S128x128) corner_zero]
  obtain ⟨-, -, -, -, e0, e1⟩ := block_indices4 t
  have hN : t.val < 25 := lt_of_lt_of_eq t.isLt N_4
  funext y
  obtain ⟨p, q, rfl⟩ : ∃ (p : Fin 2000) (q : Fin 128), y = ix2 p q := ⟨y 0, y 1, eq_ix2 y⟩
  show k4_pay1 (iblk4 V c 0 t) (iblk4 V c 1 t) (ix2 p q)
    = Cert.GatedLayer.mm (V c main_v35) (V c main_v37) (((cfg4.win 2).blk t).view.emb (ix2 p q))
  rw [block4_apply]
  refine Eq.trans ?_ (mm_at _ _ _ ⟨2000 * t.val + p.val, by have := p.isLt; omega⟩ q ?_ ?_).symm
  · refine Finset.sum_congr rfl fun k _ => ?_
    rw [rows_block4 V c t (ix2 p k) (ix2 ⟨2000 * t.val + p.val, by have := p.isLt; omega⟩ k) rfl rfl,
      weight_block4 V c t (ix2 k q)]
  · show win4_2.index t 0 * 2000 + 1 * p.val = 2000 * t.val + p.val; rw [e0]; omega
  · show win4_2.index t 1 * 128 + 1 * q.val = q.val; rw [e1]; omega

/-- Row r of the output lies in the block of point r / 2000. -/
theorem rows_covered4 (i : S50000x128.Idx) :
    ∃ t : Fin cfg4.N, (cfg4.win 2).flush t = true ∧ i ∈ ((cfg4.win 2).blk t).view.set := by
  have h0 : (i 0).val < 50000 := (i 0).isLt
  have h1 : (i 1).val < 128 := (i 1).isLt
  have hlt : (i 0).val / 2000 < cfg4.N := lt_of_lt_of_eq (by omega : (i 0).val / 2000 < 25) N_4.symm
  obtain ⟨t, ht⟩ : ∃ t : Fin cfg4.N, t.val = (i 0).val / 2000 := ⟨⟨(i 0).val / 2000, hlt⟩, rfl⟩
  obtain ⟨-, -, -, -, e0, e1⟩ := block_indices4 t
  refine ⟨t, flush4_2 t, ?_⟩
  show i ∈ ((View.whole main_v38).slice (win4_2.rect t)).set
  rw [View.set_slice_whole, Rect.mem_set_unit]
  intro a
  match a with
  | ⟨0, _⟩ =>
    show win4_2.index t 0 * 2000 ≤ (i 0).val ∧ (i 0).val < win4_2.index t 0 * 2000 + 2000
    rw [e0, ht]; omega
  | ⟨1, _⟩ =>
    show win4_2.index t 1 * 128 ≤ (i 1).val ∧ (i 1).val < win4_2.index t 1 * 128 + 128
    rw [e1]; omega

/-- After the third launch the output array is the whole product of the two input arrays as the launch finds them. -/
theorem mm_final4 (c : Dev nD) :
    (dat4 (F := Ideal) V c).arrAt 2 cfg4.N = Cert.GatedLayer.mm (V c main_v35) (V c main_v37) :=
  (dat4 V c).arrAt_eq_of_cover 2 (Cert.GatedLayer.mm (V c main_v35) (V c main_v37))
    (fun t _ => written4 V c t) rows_covered4

end Cert.KernelIdeal.RegionValue

end
-- ==== Proof.CellBlock.lean ====
/-
  One block of the gated recurrent cell, entry by entry on the extended reals.

  The block program receives a block a of aggregated messages and a block h of the old state (2000 rows of 128
  channels each), the two cell weights wi, wh (128 rows, three bands of 128 columns) and the two bias rows bi, bh.
  Its stored value at entry (p,q) is
      (1 − z)·n + z·h(p,q),   r = σ(gi(p,q) + gh(p,q)),  z = σ(gi(p,128+q) + gh(p,128+q)),
      n = tanh(gi(p,256+q) + r·gh(p,256+q)),
  with gi(p,c) = (∑ k, a(p,k)·wi(k,c)) + bi(0,c) and gh(p,c) = (∑ k, h(p,k)·wh(k,c)) + bh(0,c): a product onto a zero
  accumulator is the plain sum over the contracted coordinate, a row repeated down the rows reads its one row, a change
  of format and a reshape to the same shape are the identity, and a slice at a column offset reads the shifted column.
-/
import proofs.«112620_j43748536877306_1_alg».proof.Proof.Layer
import proofs.«112620_j43748536877306_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.CellBlock

open Cert.KernelIdeal Cert.KernelIdeal.Gen Idealize.ShloMosaic Idealize.ShloMosaic.ValueIdx

/-- A block of 2000 rows times a cell weight, onto the zero accumulator: entry (p,c) is the sum over the 128 contracted
    channels of the products of the entries. -/
theorem product_apply (x : FVec Ideal S2000x128 .bf16) (w : FVec Ideal S128x384 .bf16) (p : Fin 2000) (c : Fin 384) :
    matmul dot_S2000x128_S128x384_S2000x384_1_0_0_1_n_n none x w (constant (F := Ideal) S2000x384 .f32 0x00000000#32) (ix2 p c)
      = ∑ k : Fin 128, x (ix2 p k) * w (ix2 k c) := by
  refine (Ideal.matmul_constant_zero_apply dot_S2000x128_S128x384_S2000x384_1_0_0_1_n_n none x w (ix2 p c)).trans ?_
  rw [← Equiv.sum_comp (contrEquiv1 dot_S2000x128_S128x384_S2000x384_1_0_0_1_n_n 128 rfl rfl).symm]
  refine Finset.sum_congr rfl fun k _ => ?_
  have ck := contrEquiv1_symm_val dot_S2000x128_S128x384_S2000x384_1_0_0_1_n_n 128 rfl rfl k
  have hl : dot_S2000x128_S128x384_S2000x384_1_0_0_1_n_n.lhsIdx (ix2 p c) ((contrEquiv1 _ 128 rfl rfl).symm k) = ix2 p k := by
    funext ax; apply Fin.ext
    match ax with
    | ⟨0, _⟩ => simp [DotDims.lhsIdx, dot_S2000x128_S128x384_S2000x384_1_0_0_1_n_n]; rfl
    | ⟨1, _⟩ => exact (DotDims.lhsIdx_val_of_single _ (cl := (1 : Fin 2)) rfl _ _).trans ck
  have hr : dot_S2000x128_S128x384_S2000x384_1_0_0_1_n_n.rhsIdx (ix2 p c) ((contrEquiv1 _ 128 rfl rfl).symm k) = ix2 k c := by
    funext ax; apply Fin.ext
    match ax with
    | ⟨0, _⟩ => exact (DotDims.rhsIdx_val_of_single _ (cr := (0 : Fin 2)) rfl _ _).trans ck
    | ⟨1, _⟩ => simp [DotDims.rhsIdx, dot_S2000x128_S128x384_S2000x384_1_0_0_1_n_n]; rfl
  rw [hl, hr]

/-- Entry (p,c) of a block's pre-activation x·w + b, the bias row b repeated down the rows. -/
def pre (x : Vec Ideal S2000x128 .f32) (w : Vec Ideal S128x384 .f32) (b : Vec Ideal S1x384 .f32) (p : Fin 2000) (c : Fin 384) : EReal :=
  (∑ k : Fin 128, x (ix2 p k) * w (ix2 k c)) + b (ix2 (0 : Fin 1) c)

/-- Entry (p,q) of a block's new state, from the block a of aggregated messages and the block h of the old state. -/
def cellAt (a h : Vec Ideal S2000x128 .f32) (wi wh : Vec Ideal S128x384 .f32) (bi bh : Vec Ideal S1x384 .f32)
    (p : Fin 2000) (q : Fin 128) : EReal :=
  (1 - Ideal.logistic (pre a wi bi p (Cert.GatedLayer.mid q) + pre h wh bh p (Cert.GatedLayer.mid q)))
      * Ideal.tanh (pre a wi bi p (Cert.GatedLayer.hi q)
          + Ideal.logistic (pre a wi bi p (Cert.GatedLayer.lo q) + pre h wh bh p (Cert.GatedLayer.lo q)) * pre h wh bh p (Cert.GatedLayer.hi q))
    + Ideal.logistic (pre a wi bi p (Cert.GatedLayer.mid q) + pre h wh bh p (Cert.GatedLayer.mid q)) * h (ix2 p q)

/-- The product's entry plus the repeated bias row's, at (p,c): the pre-activation there (a change of format is the
    identity). -/
theorem pre_apply (x : Vec Ideal S2000x128 .f32) (w : Vec Ideal S128x384 .f32) (b : Vec Ideal S1x384 .f32)
    (hb : FTy.bits .bf16 < FTy.bits .f32) (hr : S1x384.Broadcasts S2000x384) (p : Fin 2000) (c : Fin 384) :
    matmul dot_S2000x128_S128x384_S2000x384_1_0_0_1_n_n none (truncf .bf16 x hb) (truncf .bf16 w hb)
        (constant (F := Ideal) S2000x384 .f32 0x00000000#32) (ix2 p c) + broadcastTo S2000x384 b hr (ix2 p c) = pre x w b p c := by
  rw [product_apply, broadcastTo_1b_ab_apply]
  rfl

/-- The first band of 128 columns: entry (p,q) of the slice is entry (p,q) of the operand. -/
theorem band_lo (x : FVec Ideal S2000x384 .f32) (hs : S2000x384.Slices ![0, 0] S2000x128) (p : Fin 2000) (q : Fin 128) :
    extractStridedSlice S2000x128 ![0, 0] x hs (ix2 p q) = x (ix2 p (Cert.GatedLayer.lo q)) :=
  extractStridedSlice_apply ![0, 0] x hs (ix2 p q) (ix2 p (Cert.GatedLayer.lo q)) fun ax => by
    match ax with
    | ⟨0, _⟩ => show p.val = 0 + p.val; omega
    | ⟨1, _⟩ => show q.val = 0 + q.val; omega

/-- The second band: entry (p,q) of the slice is entry (p,128+q) of the operand. -/
theorem band_mid (x : FVec Ideal S2000x384 .f32) (hs : S2000x384.Slices ![0, 128] S2000x128) (p : Fin 2000) (q : Fin 128) :
    extractStridedSlice S2000x128 ![0, 128] x hs (ix2 p q) = x (ix2 p (Cert.GatedLayer.mid q)) :=
  extractStridedSlice_apply ![0, 128] x hs (ix2 p q) (ix2 p (Cert.GatedLayer.mid q)) fun ax => by
    match ax with
    | ⟨0, _⟩ => show p.val = 0 + p.val; omega
    | ⟨1, _⟩ => show 128 + q.val = 128 + q.val; rfl

/-- The third band: entry (p,q) of the slice is entry (p,256+q) of the operand. -/
theorem band_hi (x : FVec Ideal S2000x384 .f32) (hs : S2000x384.Slices ![0, 256] S2000x128) (p : Fin 2000) (q : Fin 128) :
    extractStridedSlice S2000x128 ![0, 256] x hs (ix2 p q) = x (ix2 p (Cert.GatedLayer.hi q)) :=
  extractStridedSlice_apply ![0, 256] x hs (ix2 p q) (ix2 p (Cert.GatedLayer.hi q)) fun ax => by
    match ax with
    | ⟨0, _⟩ => show p.val = 0 + p.val; omega
    | ⟨1, _⟩ => show 256 + q.val = 256 + q.val; rfl

/-- The logistic function entry by entry. -/
theorem logistic_apply (x : FVec Ideal S2000x128 .f32) (i : S2000x128.Idx) : logistic x i = Ideal.logistic (x i) := rfl

/-- The hyperbolic tangent entry by entry. -/
theorem tanh_apply (x : FVec Ideal S2000x128 .f32) (i : S2000x128.Idx) : tanh x i = Ideal.tanh (x i) := rfl

/-- The word of 1.0 as a scalar of the program is 1. -/
theorem one_scalar : (Scalar.ofBits .f32 0x3F800000#32 : Ideal .f32) = 1 := Cert.GatedLayer.one_word

/-- THE BLOCK'S STORED VALUE at entry (p,q) is the cell's new state there, computed from the blocks' entries. -/
theorem payload_apply (a h : Vec Ideal S2000x128 .f32) (wi wh : Vec Ideal S128x384 .f32) (bi bh : Vec Ideal S1x384 .f32)
    (p : Fin 2000) (q : Fin 128) :
    k1_pay1 a h wi wh bi bh h (ix2 p q) = cellAt a h wi wh bi bh p q := by
  unfold k1_pay1
  simp only [shapeCast_self]
  simp only [addf_apply, mulf_apply, subf_apply, broadcast_apply, logistic_apply, tanh_apply, band_lo, band_mid, band_hi,
    one_scalar]
  rw [pre_apply a wi bi _ _ p (Cert.GatedLayer.lo q), pre_apply a wi bi _ _ p (Cert.GatedLayer.mid q),
    pre_apply a wi bi _ _ p (Cert.GatedLayer.hi q), pre_apply h wh bh _ _ p (Cert.GatedLayer.lo q),
    pre_apply h wh bh _ _ p (Cert.GatedLayer.mid q), pre_apply h wh bh _ _ p (Cert.GatedLayer.hi q)]
  rfl

/-- The second launch's stored value (the old state passes one more reshape to its own shape) is the same function. -/
theorem payload3_apply (a h : Vec Ideal S2000x128 .f32) (wi wh : Vec Ideal S128x384 .f32) (bi bh : Vec Ideal S1x384 .f32)
    (p : Fin 2000) (q : Fin 128) :
    k3_pay1 a h wi wh bi bh h (ix2 p q) = cellAt a h wi wh bi bh p q := by
  unfold k3_pay1
  simp only [shapeCast_self]
  simp only [addf_apply, mulf_apply, subf_apply, broadcast_apply, logistic_apply, tanh_apply, band_lo, band_mid, band_hi,
    one_scalar]
  rw [pre_apply a wi bi _ _ p (Cert.GatedLayer.lo q), pre_apply a wi bi _ _ p (Cert.GatedLayer.mid q),
    pre_apply a wi bi _ _ p (Cert.GatedLayer.hi q), pre_apply h wh bh _ _ p (Cert.GatedLayer.lo q),
    pre_apply h wh bh _ _ p (Cert.GatedLayer.mid q), pre_apply h wh bh _ _ p (Cert.GatedLayer.hi q)]
  rfl

/-- The third launch's stored value is the second's. -/
theorem payload5_apply (a h : Vec Ideal S2000x128 .f32) (wi wh : Vec Ideal S128x384 .f32) (bi bh : Vec Ideal S1x384 .f32)
    (p : Fin 2000) (q : Fin 128) :
    k5_pay1 a h wi wh bi bh h (ix2 p q) = cellAt a h wi wh bi bh p q :=
  payload3_apply a h wi wh bi bh p q

/-! ## A block as rows of the whole arrays -/

/-- Row p of the block that starts at row r₀ of the 50000. -/
def row (r₀ : Nat) (hr₀ : r₀ + 2000 ≤ 50000) (p : Fin 2000) : Fin 50000 := ⟨r₀ + p.val, by have := p.isLt; omega⟩

/-- When row p of the two row blocks is row r of the whole arrays and the weights and biases are the whole ones, the
    block's new state at (p,q) is the whole array's at (r,q): the two formulas read the same entries. -/
theorem cellAt_eq_gruAt (a h : Vec Ideal S2000x128 .f32) (wi wh : Vec Ideal S128x384 .f32) (bi bh : Vec Ideal S1x384 .f32)
    (A H : FVec Ideal Cert.GatedLayer.Nodes .f32) (Wi Wh : FVec Ideal Cert.GatedLayer.Wide .f32)
    (Bi Bh : FVec Ideal Cert.GatedLayer.Row .f32) (p : Fin 2000) (r : Fin 50000) (q : Fin 128)
    (ha : ∀ k : Fin 128, a (ix2 p k) = A (ix2 r k)) (hh : ∀ k : Fin 128, h (ix2 p k) = H (ix2 r k))
    (hwi : ∀ (k : Fin 128) (c : Fin 384), wi (ix2 k c) = Wi (ix2 k c))
    (hwh : ∀ (k : Fin 128) (c : Fin 384), wh (ix2 k c) = Wh (ix2 k c))
    (hbi : ∀ c : Fin 384, bi (ix2 (0 : Fin 1) c) = Bi (ix2 (0 : Fin 1) c))
    (hbh : ∀ c : Fin 384, bh (ix2 (0 : Fin 1) c) = Bh (ix2 (0 : Fin 1) c)) :
    cellAt a h wi wh bi bh p q = Cert.GatedLayer.gruAt A H Wi Wh Bi Bh r q := by
  unfold cellAt Cert.GatedLayer.gruAt pre Cert.GatedLayer.preAt
  simp only [ha, hh, hwi, hwh, hbi, hbh]

/-- THE FIRST LAUNCH'S BLOCK: when the two row blocks are rows r₀ … r₀+1999 of whole arrays A, H and the weights and
    biases are whole, the stored value at a block index j is the whole-array cell function at row r₀ + j₀, column j₁. -/
theorem block_value (a h : Vec Ideal S2000x128 .f32) (wi wh : Vec Ideal S128x384 .f32) (bi bh : Vec Ideal S1x384 .f32)
    (A H : FVec Ideal Cert.GatedLayer.Nodes .f32) (Wi Wh : FVec Ideal Cert.GatedLayer.Wide .f32)
    (Bi Bh : FVec Ideal Cert.GatedLayer.Row .f32) (r₀ : Nat) (hr₀ : r₀ + 2000 ≤ 50000)
    (ha : ∀ (p : Fin 2000) (k : Fin 128), a (ix2 p k) = A (ix2 (row r₀ hr₀ p) k))
    (hh : ∀ (p : Fin 2000) (k : Fin 128), h (ix2 p k) = H (ix2 (row r₀ hr₀ p) k))
    (hwi : ∀ (k : Fin 128) (c : Fin 384), wi (ix2 k c) = Wi (ix2 k c))
    (hwh : ∀ (k : Fin 128) (c : Fin 384), wh (ix2 k c) = Wh (ix2 k c))
    (hbi : ∀ c : Fin 384, bi (ix2 (0 : Fin 1) c) = Bi (ix2 (0 : Fin 1) c))
    (hbh : ∀ c : Fin 384, bh (ix2 (0 : Fin 1) c) = Bh (ix2 (0 : Fin 1) c)) (j : S2000x128.Idx) :
    k1_pay1 a h wi wh bi bh h j = Cert.GatedLayer.gru A H Wi Wh Bi Bh (ix2 (row r₀ hr₀ (j 0)) (j 1)) := by
  obtain ⟨p, q, rfl⟩ : ∃ (p : Fin 2000) (q : Fin 128), j = ix2 p q := ⟨j 0, j 1, eq_ix2 j⟩
  rw [payload_apply]
  exact cellAt_eq_gruAt a h wi wh bi bh A H Wi Wh Bi Bh p (row r₀ hr₀ p) q (ha p) (hh p) hwi hwh hbi hbh

/-- THE LATER LAUNCHES' BLOCK: the same. -/
theorem block_value3 (a h : Vec Ideal S2000x128 .f32) (wi wh : Vec Ideal S128x384 .f32) (bi bh : Vec Ideal S1x384 .f32)
    (A H : FVec Ideal Cert.GatedLayer.Nodes .f32) (Wi Wh : FVec Ideal Cert.GatedLayer.Wide .f32)
    (Bi Bh : FVec Ideal Cert.GatedLayer.Row .f32) (r₀ : Nat) (hr₀ : r₀ + 2000 ≤ 50000)
    (ha : ∀ (p : Fin 2000) (k : Fin 128), a (ix2 p k) = A (ix2 (row r₀ hr₀ p) k))
    (hh : ∀ (p : Fin 2000) (k : Fin 128), h (ix2 p k) = H (ix2 (row r₀ hr₀ p) k))
    (hwi : ∀ (k : Fin 128) (c : Fin 384), wi (ix2 k c) = Wi (ix2 k c))
    (hwh : ∀ (k : Fin 128) (c : Fin 384), wh (ix2 k c) = Wh (ix2 k c))
    (hbi : ∀ c : Fin 384, bi (ix2 (0 : Fin 1) c) = Bi (ix2 (0 : Fin 1) c))
    (hbh : ∀ c : Fin 384, bh (ix2 (0 : Fin 1) c) = Bh (ix2 (0 : Fin 1) c)) (j : S2000x128.Idx) :
    k3_pay1 a h wi wh bi bh h j = Cert.GatedLayer.gru A H Wi Wh Bi Bh (ix2 (row r₀ hr₀ (j 0)) (j 1)) := by
  obtain ⟨p, q, rfl⟩ : ∃ (p : Fin 2000) (q : Fin 128), j = ix2 p q := ⟨j 0, j 1, eq_ix2 j⟩
  rw [payload3_apply]
  exact cellAt_eq_gruAt a h wi wh bi bh A H Wi Wh Bi Bh p (row r₀ hr₀ p) q (ha p) (hh p) hwi hwh hbi hbh

theorem block_value5 (a h : Vec Ideal S2000x128 .f32) (wi wh : Vec Ideal S128x384 .f32) (bi bh : Vec Ideal S1x384 .f32)
    (A H : FVec Ideal Cert.GatedLayer.Nodes .f32) (Wi Wh : FVec Ideal Cert.GatedLayer.Wide .f32)
    (Bi Bh : FVec Ideal Cert.GatedLayer.Row .f32) (r₀ : Nat) (hr₀ : r₀ + 2000 ≤ 50000)
    (ha : ∀ (p : Fin 2000) (k : Fin 128), a (ix2 p k) = A (ix2 (row r₀ hr₀ p) k))
    (hh : ∀ (p : Fin 2000) (k : Fin 128), h (ix2 p k) = H (ix2 (row r₀ hr₀ p) k))
    (hwi : ∀ (k : Fin 128) (c : Fin 384), wi (ix2 k c) = Wi (ix2 k c))
    (hwh : ∀ (k : Fin 128) (c : Fin 384), wh (ix2 k c) = Wh (ix2 k c))
    (hbi : ∀ c : Fin 384, bi (ix2 (0 : Fin 1) c) = Bi (ix2 (0 : Fin 1) c))
    (hbh : ∀ c : Fin 384, bh (ix2 (0 : Fin 1) c) = Bh (ix2 (0 : Fin 1) c)) (j : S2000x128.Idx) :
    k5_pay1 a h wi wh bi bh h j = Cert.GatedLayer.gru A H Wi Wh Bi Bh (ix2 (row r₀ hr₀ (j 0)) (j 1)) :=
  block_value3 a h wi wh bi bh A H Wi Wh Bi Bh r₀ hr₀ ha hh hwi hwh hbi hbh j

/-- The zero offsets of a whole-block access, as the constant function. -/
theorem zero_offsets : (![0, 0] : Fin 2 → Nat) = fun _ => 0 := funext fun a => by fin_cases a <;> rfl

end Cert.KernelIdeal.CellBlock

end
-- ==== Proof.CellValue1.lean ====
/-
  The cell's launch number one, from its 25 blocks to the whole array.

  Grid point t works on rows 2000·t … 2000·t + 1999: its blocks of the aggregated messages and of the old state are those
  rows of the two arrays, the weights and bias rows are whole at every point, and what it writes back is those rows of the
  whole-array cell function.  Every row r lies in the block of point r / 2000, so after the 25 points the output array is
  the cell function of the six input arrays as the launch finds them.
-/
import proofs.«112620_j43748536877306_1_alg».proof.Proof.CellBlock
import proofs.«112620_j43748536877306_1_alg».proof.Proof.Gen.KernelIdeal.Frame
import proofs.«112620_j43748536877306_1_alg».proof.Proof.Layer
import Idealize.ShloMosaic.Lib.Pipeline.Value

noncomputable section

namespace Cert.KernelIdeal.RegionValue

open Cert.KernelIdeal Cert.KernelIdeal.Gen Idealize.ShloMosaic Idealize.ShloMosaic.TcCoe Idealize.SL.Sem Idealize.ShloMosaic.Pipeline
open Idealize.ShloMosaic.ValueIdx Cert.KernelIdeal.CellBlock

variable (V : (c : Dev nD) → (b : Ref sig .tc) → Buf (Elt Ideal) ((c : Thread nD τ).loc b))

/-- The block indices over the grid: the two row-blocked inputs and the output are at block (t, 0), the weights and bias
    rows at block (0, 0). -/
theorem block_indices1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- A grid point's rows stay inside the 50000. -/
theorem rows_inside1 (t : Fin cfg1.N) : 2000 * t.val + 2000 ≤ 50000 := by
  have h : t.val < 25 := lt_of_lt_of_eq t.isLt N_1
  omega

/-- The block of aggregated messages at point t is rows 2000·t … of the array. -/
theorem agg_block1 (c : Dev nD) (t : Fin cfg1.N) (p : Fin 2000) (k : Fin 128) :
    (iblk1 V c 0 t : Vec Ideal S2000x128 .f32) (ix2 p k)
      = (V c main_v20 : FVec Ideal Cert.GatedLayer.Nodes .f32) (ix2 (row (2000 * t.val) (rows_inside1 t) p) k) := by
  obtain ⟨e0, e1, -⟩ := block_indices1 t
  unfold iblk1
  rw [View.read_apply]
  show V c main_v20 _ = V c main_v20 _
  congr 1
  funext a
  apply Fin.ext
  match a with
  | ⟨0, _⟩ => show win1_0.index t (0 : Fin 2) * 2000 + 1 * p.val = 2000 * t.val + p.val; rw [e0]; omega
  | ⟨1, _⟩ => show win1_0.index t (1 : Fin 2) * 128 + 1 * k.val = k.val; rw [e1]; omega

/-- The block of the old state at point t is the same rows of its array. -/
theorem state_block1 (c : Dev nD) (t : Fin cfg1.N) (p : Fin 2000) (k : Fin 128) :
    (iblk1 V c 1 t : Vec Ideal S2000x128 .f32) (ix2 p k)
      = (V c main_arg0 : FVec Ideal Cert.GatedLayer.Nodes .f32) (ix2 (row (2000 * t.val) (rows_inside1 t) p) k) := by
  obtain ⟨-, -, e0, e1, -⟩ := block_indices1 t
  unfold iblk1
  rw [View.read_apply]
  show V c main_arg0 _ = V c main_arg0 _
  congr 1
  funext a
  apply Fin.ext
  match a with
  | ⟨0, _⟩ => show win1_1.index t (0 : Fin 2) * 2000 + 1 * p.val = 2000 * t.val + p.val; rw [e0]; omega
  | ⟨1, _⟩ => show win1_1.index t (1 : Fin 2) * 128 + 1 * k.val = k.val; rw [e1]; omega

/-- The input weight's block is the whole weight at every point. -/
theorem wi_block1 (c : Dev nD) (t : Fin cfg1.N) (k : Fin 128) (d : Fin 384) :
    (iblk1 V c 2 t : Vec Ideal S128x384 .f32) (ix2 k d) = (V c main_v4 : FVec Ideal Cert.GatedLayer.Wide .f32) (ix2 k d) := by
  obtain ⟨-, -, -, -, e0, e1, -⟩ := block_indices1 t
  unfold iblk1
  rw [View.read_apply]
  show V c main_v4 _ = V c main_v4 _
  congr 1
  funext a
  apply Fin.ext
  match a with
  | ⟨0, _⟩ => show win1_2.index t (0 : Fin 2) * 128 + 1 * k.val = k.val; rw [e0]; omega
  | ⟨1, _⟩ => show win1_2.index t (1 : Fin 2) * 384 + 1 * d.val = d.val; rw [e1]; omega

/-- The hidden weight's block is the whole weight at every point. -/
theorem wh_block1 (c : Dev nD) (t : Fin cfg1.N) (k : Fin 128) (d : Fin 384) :
    (iblk1 V c 3 t : Vec Ideal S128x384 .f32) (ix2 k d) = (V c main_v5 : FVec Ideal Cert.GatedLayer.Wide .f32) (ix2 k d) := by
  obtain ⟨-, -, -, -, -, -, e0, e1, -⟩ := block_indices1 t
  unfold iblk1
  rw [View.read_apply]
  show V c main_v5 _ = V c main_v5 _
  congr 1
  funext a
  apply Fin.ext
  match a with
  | ⟨0, _⟩ => show win1_3.index t (0 : Fin 2) * 128 + 1 * k.val = k.val; rw [e0]; omega
  | ⟨1, _⟩ => show win1_3.index t (1 : Fin 2) * 384 + 1 * d.val = d.val; rw [e1]; omega

/-- The input bias row's block is the whole row at every point. -/
theorem bi_block1 (c : Dev nD) (t : Fin cfg1.N) (d : Fin 384) :
    (iblk1 V c 4 t : Vec Ideal S1x384 .f32) (ix2 (0 : Fin 1) d) = (V c main_v6 : FVec Ideal Cert.GatedLayer.Row .f32) (ix2 (0 : Fin 1) d) := by
  obtain ⟨-, -, -, -, -, -, -, -, e0, e1, -⟩ := block_indices1 t
  unfold iblk1
  rw [View.read_apply]
  show V c main_v6 _ = V c main_v6 _
  congr 1
  funext a
  apply Fin.ext
  match a with
  | ⟨0, _⟩ => show win1_4.index t (0 : Fin 2) * 1 + 1 * 0 = 0; rw [e0]
  | ⟨1, _⟩ => show win1_4.index t (1 : Fin 2) * 384 + 1 * d.val = d.val; rw [e1]; omega

/-- The hidden bias row's block is the whole row at every point. -/
theorem bh_block1 (c : Dev nD) (t : Fin cfg1.N) (d : Fin 384) :
    (iblk1 V c 5 t : Vec Ideal S1x384 .f32) (ix2 (0 : Fin 1) d) = (V c main_v7 : FVec Ideal Cert.GatedLayer.Row .f32) (ix2 (0 : Fin 1) d) := by
  obtain ⟨-, -, -, -, -, -, -, -, -, -, e0, e1, -⟩ := block_indices1 t
  unfold iblk1
  rw [View.read_apply]
  show V c main_v7 _ = V c main_v7 _
  congr 1
  funext a
  apply Fin.ext
  match a with
  | ⟨0, _⟩ => show win1_5.index t (0 : Fin 2) * 1 + 1 * 0 = 0; rw [e0]
  | ⟨1, _⟩ => show win1_5.index t (1 : Fin 2) * 384 + 1 * d.val = d.val; rw [e1]; omega

/-- WHAT POINT t WRITES BACK is its block of the whole-array cell function of the six input arrays. -/
theorem written_back1 (c : Dev nD) (t : Fin cfg1.N) :
    (dat1 (F := Ideal) V c).flushed 6 t = ((cfg1.win 6).blk t).view.read (Elt Ideal)
      (Cert.GatedLayer.gru (V c main_v20) (V c main_arg0) (V c main_v4) (V c main_v5) (V c main_v6) (V c main_v7)) := by
  show (cfg1.win 6).cut (grid1.coords t) ((dat1 V c).after 6 t) = _
  rw [after1_6]
  unfold out1_6
  rw [View.canon_unit_zero zero_offsets]
  simp only [View.ld_unit_zero (S := S2000x128) zero_offsets, View.ld_unit_zero (S := S128x384) zero_offsets,
    View.ld_unit_zero (S := S1x384) zero_offsets]
  obtain ⟨-, -, -, -, -, -, -, -, -, -, -, -, e0, e1⟩ := block_indices1 t
  funext j
  refine (block_value (iblk1 V c 0 t) (iblk1 V c 1 t) (iblk1 V c 2 t) (iblk1 V c 3 t) (iblk1 V c 4 t) (iblk1 V c 5 t)
    (V c main_v20) (V c main_arg0) (V c main_v4) (V c main_v5) (V c main_v6) (V c main_v7) (2000 * t.val) (rows_inside1 t)
    (agg_block1 V c t) (state_block1 V c t) (wi_block1 V c t) (wh_block1 V c t) (bi_block1 V c t) (bh_block1 V c t) j).trans ?_
  rw [View.read_apply]
  show Cert.GatedLayer.gru (V c main_v20) (V c main_arg0) (V c main_v4) (V c main_v5) (V c main_v6) (V c main_v7) _
    = Cert.GatedLayer.gru (V c main_v20) (V c main_arg0) (V c main_v4) (V c main_v5) (V c main_v6) (V c main_v7) _
  congr 1
  funext a
  apply Fin.ext
  match a with
  | ⟨0, _⟩ => show 2000 * t.val + (j 0).val = win1_6.index t (0 : Fin 2) * 2000 + 1 * (j 0).val; rw [e0]; omega
  | ⟨1, _⟩ => show (j 1).val = win1_6.index t (1 : Fin 2) * 128 + 1 * (j 1).val; rw [e1]; omega

/-- An index of the output array is in point t's block iff each coordinate is in the block's range on its axis. -/
theorem mem_block1 (t : Fin cfg1.N) (i : S50000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v21).slice (win1_6.rect t)).set ↔ _
  rw [View.set_slice_whole, Rect.mem_set_unit]
  exact Iff.rfl

/-- Row r is in the block of point r / 2000: the 25 blocks cover the array. -/
theorem rows_covered1 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  have ht : t.val = (i 0).val / 2000 := rfl
  obtain ⟨-, -, -, -, -, -, -, -, -, -, -, -, e0, e1⟩ := block_indices1 t
  refine ⟨t, flush1_6 t, ?_⟩
  rw [mem_block1]
  intro a
  match a with
  | ⟨0, _⟩ =>
    show win1_6.index t (0 : Fin 2) * 2000 ≤ (i 0).val ∧ (i 0).val < win1_6.index t (0 : Fin 2) * 2000 + 2000
    rw [e0, ht]; omega
  | ⟨1, _⟩ =>
    show win1_6.index t (1 : Fin 2) * 128 ≤ (i 1).val ∧ (i 1).val < win1_6.index t (1 : Fin 2) * 128 + 128
    rw [e1]; omega

/-- THE OUTPUT ARRAY after the launch is the cell function of the six input arrays as the launch finds them. -/
theorem gru_final1 (c : Dev nD) : (dat1 (F := Ideal) V c).arrAt 6 cfg1.N
    = Cert.GatedLayer.gru (V c main_v20) (V c main_arg0) (V c main_v4) (V c main_v5) (V c main_v6) (V c main_v7) :=
  (dat1 (F := Ideal) V c).arrAt_eq_of_cover 6 _ (fun t _ => written_back1 V c t) (rows_covered1)

end Cert.KernelIdeal.RegionValue

end
-- ==== Proof.CellValue3.lean ====
/-
  The cell's launch number two, from its 25 blocks to the whole array.

  Grid point t works on rows 2000·t … 2000·t + 1999: its blocks of the aggregated messages and of the old state are those
  rows of the two arrays, the weights and bias rows are whole at every point, and what it writes back is those rows of the
  whole-array cell function.  Every row r lies in the block of point r / 2000, so after the 25 points the output array is
  the cell function of the six input arrays as the launch finds them.
-/
import proofs.«112620_j43748536877306_1_alg».proof.Proof.CellBlock
import proofs.«112620_j43748536877306_1_alg».proof.Proof.Gen.KernelIdeal.Frame
import proofs.«112620_j43748536877306_1_alg».proof.Proof.Layer
import Idealize.ShloMosaic.Lib.Pipeline.Value

noncomputable section

namespace Cert.KernelIdeal.RegionValue

open Cert.KernelIdeal Cert.KernelIdeal.Gen Idealize.ShloMosaic Idealize.ShloMosaic.TcCoe Idealize.SL.Sem Idealize.ShloMosaic.Pipeline
open Idealize.ShloMosaic.ValueIdx Cert.KernelIdeal.CellBlock

variable (V : (c : Dev nD) → (b : Ref sig .tc) → Buf (Elt Ideal) ((c : Thread nD τ).loc b))

/-- The block indices over the grid: the two row-blocked inputs and the output are at block (t, 0), the weights and bias
    rows at block (0, 0). -/
theorem block_indices3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- A grid point's rows stay inside the 50000. -/
theorem rows_inside3 (t : Fin cfg3.N) : 2000 * t.val + 2000 ≤ 50000 := by
  have h : t.val < 25 := lt_of_lt_of_eq t.isLt N_3
  omega

/-- The block of aggregated messages at point t is rows 2000·t … of the array. -/
theorem agg_block3 (c : Dev nD) (t : Fin cfg3.N) (p : Fin 2000) (k : Fin 128) :
    (iblk3 V c 0 t : Vec Ideal S2000x128 .f32) (ix2 p k)
      = (V c main_v34 : FVec Ideal Cert.GatedLayer.Nodes .f32) (ix2 (row (2000 * t.val) (rows_inside3 t) p) k) := by
  obtain ⟨e0, e1, -⟩ := block_indices3 t
  unfold iblk3
  rw [View.read_apply]
  show V c main_v34 _ = V c main_v34 _
  congr 1
  funext a
  apply Fin.ext
  match a with
  | ⟨0, _⟩ => show win3_0.index t (0 : Fin 2) * 2000 + 1 * p.val = 2000 * t.val + p.val; rw [e0]; omega
  | ⟨1, _⟩ => show win3_0.index t (1 : Fin 2) * 128 + 1 * k.val = k.val; rw [e1]; omega

/-- The block of the old state at point t is the same rows of its array. -/
theorem state_block3 (c : Dev nD) (t : Fin cfg3.N) (p : Fin 2000) (k : Fin 128) :
    (iblk3 V c 1 t : Vec Ideal S2000x128 .f32) (ix2 p k)
      = (V c main_v21 : FVec Ideal Cert.GatedLayer.Nodes .f32) (ix2 (row (2000 * t.val) (rows_inside3 t) p) k) := by
  obtain ⟨-, -, e0, e1, -⟩ := block_indices3 t
  unfold iblk3
  rw [View.read_apply]
  show V c main_v21 _ = V c main_v21 _
  congr 1
  funext a
  apply Fin.ext
  match a with
  | ⟨0, _⟩ => show win3_1.index t (0 : Fin 2) * 2000 + 1 * p.val = 2000 * t.val + p.val; rw [e0]; omega
  | ⟨1, _⟩ => show win3_1.index t (1 : Fin 2) * 128 + 1 * k.val = k.val; rw [e1]; omega

/-- The input weight's block is the whole weight at every point. -/
theorem wi_block3 (c : Dev nD) (t : Fin cfg3.N) (k : Fin 128) (d : Fin 384) :
    (iblk3 V c 2 t : Vec Ideal S128x384 .f32) (ix2 k d) = (V c main_v4 : FVec Ideal Cert.GatedLayer.Wide .f32) (ix2 k d) := by
  obtain ⟨-, -, -, -, e0, e1, -⟩ := block_indices3 t
  unfold iblk3
  rw [View.read_apply]
  show V c main_v4 _ = V c main_v4 _
  congr 1
  funext a
  apply Fin.ext
  match a with
  | ⟨0, _⟩ => show win3_2.index t (0 : Fin 2) * 128 + 1 * k.val = k.val; rw [e0]; omega
  | ⟨1, _⟩ => show win3_2.index t (1 : Fin 2) * 384 + 1 * d.val = d.val; rw [e1]; omega

/-- The hidden weight's block is the whole weight at every point. -/
theorem wh_block3 (c : Dev nD) (t : Fin cfg3.N) (k : Fin 128) (d : Fin 384) :
    (iblk3 V c 3 t : Vec Ideal S128x384 .f32) (ix2 k d) = (V c main_v5 : FVec Ideal Cert.GatedLayer.Wide .f32) (ix2 k d) := by
  obtain ⟨-, -, -, -, -, -, e0, e1, -⟩ := block_indices3 t
  unfold iblk3
  rw [View.read_apply]
  show V c main_v5 _ = V c main_v5 _
  congr 1
  funext a
  apply Fin.ext
  match a with
  | ⟨0, _⟩ => show win3_3.index t (0 : Fin 2) * 128 + 1 * k.val = k.val; rw [e0]; omega
  | ⟨1, _⟩ => show win3_3.index t (1 : Fin 2) * 384 + 1 * d.val = d.val; rw [e1]; omega

/-- The input bias row's block is the whole row at every point. -/
theorem bi_block3 (c : Dev nD) (t : Fin cfg3.N) (d : Fin 384) :
    (iblk3 V c 4 t : Vec Ideal S1x384 .f32) (ix2 (0 : Fin 1) d) = (V c main_v6 : FVec Ideal Cert.GatedLayer.Row .f32) (ix2 (0 : Fin 1) d) := by
  obtain ⟨-, -, -, -, -, -, -, -, e0, e1, -⟩ := block_indices3 t
  unfold iblk3
  rw [View.read_apply]
  show V c main_v6 _ = V c main_v6 _
  congr 1
  funext a
  apply Fin.ext
  match a with
  | ⟨0, _⟩ => show win3_4.index t (0 : Fin 2) * 1 + 1 * 0 = 0; rw [e0]
  | ⟨1, _⟩ => show win3_4.index t (1 : Fin 2) * 384 + 1 * d.val = d.val; rw [e1]; omega

/-- The hidden bias row's block is the whole row at every point. -/
theorem bh_block3 (c : Dev nD) (t : Fin cfg3.N) (d : Fin 384) :
    (iblk3 V c 5 t : Vec Ideal S1x384 .f32) (ix2 (0 : Fin 1) d) = (V c main_v7 : FVec Ideal Cert.GatedLayer.Row .f32) (ix2 (0 : Fin 1) d) := by
  obtain ⟨-, -, -, -, -, -, -, -, -, -, e0, e1, -⟩ := block_indices3 t
  unfold iblk3
  rw [View.read_apply]
  show V c main_v7 _ = V c main_v7 _
  congr 1
  funext a
  apply Fin.ext
  match a with
  | ⟨0, _⟩ => show win3_5.index t (0 : Fin 2) * 1 + 1 * 0 = 0; rw [e0]
  | ⟨1, _⟩ => show win3_5.index t (1 : Fin 2) * 384 + 1 * d.val = d.val; rw [e1]; omega

/-- WHAT POINT t WRITES BACK is its block of the whole-array cell function of the six input arrays. -/
theorem written_back3 (c : Dev nD) (t : Fin cfg3.N) :
    (dat3 (F := Ideal) V c).flushed 6 t = ((cfg3.win 6).blk t).view.read (Elt Ideal)
      (Cert.GatedLayer.gru (V c main_v34) (V c main_v21) (V c main_v4) (V c main_v5) (V c main_v6) (V c main_v7)) := by
  show (cfg3.win 6).cut (grid3.coords t) ((dat3 V c).after 6 t) = _
  rw [after3_6]
  unfold out3_6
  rw [View.canon_unit_zero zero_offsets]
  simp only [View.ld_unit_zero (S := S2000x128) zero_offsets, View.ld_unit_zero (S := S128x384) zero_offsets,
    View.ld_unit_zero (S := S1x384) zero_offsets]
  obtain ⟨-, -, -, -, -, -, -, -, -, -, -, -, e0, e1⟩ := block_indices3 t
  funext j
  refine (block_value3 (iblk3 V c 0 t) (iblk3 V c 1 t) (iblk3 V c 2 t) (iblk3 V c 3 t) (iblk3 V c 4 t) (iblk3 V c 5 t)
    (V c main_v34) (V c main_v21) (V c main_v4) (V c main_v5) (V c main_v6) (V c main_v7) (2000 * t.val) (rows_inside3 t)
    (agg_block3 V c t) (state_block3 V c t) (wi_block3 V c t) (wh_block3 V c t) (bi_block3 V c t) (bh_block3 V c t) j).trans ?_
  rw [View.read_apply]
  show Cert.GatedLayer.gru (V c main_v34) (V c main_v21) (V c main_v4) (V c main_v5) (V c main_v6) (V c main_v7) _
    = Cert.GatedLayer.gru (V c main_v34) (V c main_v21) (V c main_v4) (V c main_v5) (V c main_v6) (V c main_v7) _
  congr 1
  funext a
  apply Fin.ext
  match a with
  | ⟨0, _⟩ => show 2000 * t.val + (j 0).val = win3_6.index t (0 : Fin 2) * 2000 + 1 * (j 0).val; rw [e0]; omega
  | ⟨1, _⟩ => show (j 1).val = win3_6.index t (1 : Fin 2) * 128 + 1 * (j 1).val; rw [e1]; omega

/-- An index of the output array is in point t's block iff each coordinate is in the block's range on its axis. -/
theorem mem_block3 (t : Fin cfg3.N) (i : S50000x128.Idx) :
    i ∈ ((cfg3.win 6).blk t).view.set ↔ ∀ a : Fin 2, win3_6.index t a * S2000x128.size a ≤ (i a).val
      ∧ (i a).val < win3_6.index t a * S2000x128.size a + S2000x128.size a := by
  show i ∈ ((View.whole main_v35).slice (win3_6.rect t)).set ↔ _
  rw [View.set_slice_whole, Rect.mem_set_unit]
  exact Iff.rfl

/-- Row r is in the block of point r / 2000: the 25 blocks cover the array. -/
theorem rows_covered3 (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 25 := N_3
  let t : Fin cfg3.N := ⟨(i 0).val / 2000, by rw [hN]; omega⟩
  have ht : t.val = (i 0).val / 2000 := rfl
  obtain ⟨-, -, -, -, -, -, -, -, -, -, -, -, e0, e1⟩ := block_indices3 t
  refine ⟨t, flush3_6 t, ?_⟩
  rw [mem_block3]
  intro a
  match a with
  | ⟨0, _⟩ =>
    show win3_6.index t (0 : Fin 2) * 2000 ≤ (i 0).val ∧ (i 0).val < win3_6.index t (0 : Fin 2) * 2000 + 2000
    rw [e0, ht]; omega
  | ⟨1, _⟩ =>
    show win3_6.index t (1 : Fin 2) * 128 ≤ (i 1).val ∧ (i 1).val < win3_6.index t (1 : Fin 2) * 128 + 128
    rw [e1]; omega

/-- THE OUTPUT ARRAY after the launch is the cell function of the six input arrays as the launch finds them. -/
theorem gru_final3 (c : Dev nD) : (dat3 (F := Ideal) V c).arrAt 6 cfg3.N
    = Cert.GatedLayer.gru (V c main_v34) (V c main_v21) (V c main_v4) (V c main_v5) (V c main_v6) (V c main_v7) :=
  (dat3 (F := Ideal) V c).arrAt_eq_of_cover 6 _ (fun t _ => written_back3 V c t) (rows_covered3)

end Cert.KernelIdeal.RegionValue

end
-- ==== Proof.CellValue5.lean ====
/-
  The cell's launch number three, from its 25 blocks to the whole array.

  Grid point t works on rows 2000·t … 2000·t + 1999: its blocks of the aggregated messages and of the old state are those
  rows of the two arrays, the weights and bias rows are whole at every point, and what it writes back is those rows of the
  whole-array cell function.  Every row r lies in the block of point r / 2000, so after the 25 points the output array is
  the cell function of the six input arrays as the launch finds them.
-/
import proofs.«112620_j43748536877306_1_alg».proof.Proof.CellBlock
import proofs.«112620_j43748536877306_1_alg».proof.Proof.Gen.KernelIdeal.Frame
import proofs.«112620_j43748536877306_1_alg».proof.Proof.Layer
import Idealize.ShloMosaic.Lib.Pipeline.Value

noncomputable section

namespace Cert.KernelIdeal.RegionValue

open Cert.KernelIdeal Cert.KernelIdeal.Gen Idealize.ShloMosaic Idealize.ShloMosaic.TcCoe Idealize.SL.Sem Idealize.ShloMosaic.Pipeline
open Idealize.ShloMosaic.ValueIdx Cert.KernelIdeal.CellBlock

variable (V : (c : Dev nD) → (b : Ref sig .tc) → Buf (Elt Ideal) ((c : Thread nD τ).loc b))

/-- The block indices over the grid: the two row-blocked inputs and the output are at block (t, 0), the weights and bias
    rows at block (0, 0). -/
theorem block_indices5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- A grid point's rows stay inside the 50000. -/
theorem rows_inside5 (t : Fin cfg5.N) : 2000 * t.val + 2000 ≤ 50000 := by
  have h : t.val < 25 := lt_of_lt_of_eq t.isLt N_5
  omega

/-- The block of aggregated messages at point t is rows 2000·t … of the array. -/
theorem agg_block5 (c : Dev nD) (t : Fin cfg5.N) (p : Fin 2000) (k : Fin 128) :
    (iblk5 V c 0 t : Vec Ideal S2000x128 .f32) (ix2 p k)
      = (V c main_v48 : FVec Ideal Cert.GatedLayer.Nodes .f32) (ix2 (row (2000 * t.val) (rows_inside5 t) p) k) := by
  obtain ⟨e0, e1, -⟩ := block_indices5 t
  unfold iblk5
  rw [View.read_apply]
  show V c main_v48 _ = V c main_v48 _
  congr 1
  funext a
  apply Fin.ext
  match a with
  | ⟨0, _⟩ => show win5_0.index t (0 : Fin 2) * 2000 + 1 * p.val = 2000 * t.val + p.val; rw [e0]; omega
  | ⟨1, _⟩ => show win5_0.index t (1 : Fin 2) * 128 + 1 * k.val = k.val; rw [e1]; omega

/-- The block of the old state at point t is the same rows of its array. -/
theorem state_block5 (c : Dev nD) (t : Fin cfg5.N) (p : Fin 2000) (k : Fin 128) :
    (iblk5 V c 1 t : Vec Ideal S2000x128 .f32) (ix2 p k)
      = (V c main_v35 : FVec Ideal Cert.GatedLayer.Nodes .f32) (ix2 (row (2000 * t.val) (rows_inside5 t) p) k) := by
  obtain ⟨-, -, e0, e1, -⟩ := block_indices5 t
  unfold iblk5
  rw [View.read_apply]
  show V c main_v35 _ = V c main_v35 _
  congr 1
  funext a
  apply Fin.ext
  match a with
  | ⟨0, _⟩ => show win5_1.index t (0 : Fin 2) * 2000 + 1 * p.val = 2000 * t.val + p.val; rw [e0]; omega
  | ⟨1, _⟩ => show win5_1.index t (1 : Fin 2) * 128 + 1 * k.val = k.val; rw [e1]; omega

/-- The input weight's block is the whole weight at every point. -/
theorem wi_block5 (c : Dev nD) (t : Fin cfg5.N) (k : Fin 128) (d : Fin 384) :
    (iblk5 V c 2 t : Vec Ideal S128x384 .f32) (ix2 k d) = (V c main_v4 : FVec Ideal Cert.GatedLayer.Wide .f32) (ix2 k d) := by
  obtain ⟨-, -, -, -, e0, e1, -⟩ := block_indices5 t
  unfold iblk5
  rw [View.read_apply]
  show V c main_v4 _ = V c main_v4 _
  congr 1
  funext a
  apply Fin.ext
  match a with
  | ⟨0, _⟩ => show win5_2.index t (0 : Fin 2) * 128 + 1 * k.val = k.val; rw [e0]; omega
  | ⟨1, _⟩ => show win5_2.index t (1 : Fin 2) * 384 + 1 * d.val = d.val; rw [e1]; omega

/-- The hidden weight's block is the whole weight at every point. -/
theorem wh_block5 (c : Dev nD) (t : Fin cfg5.N) (k : Fin 128) (d : Fin 384) :
    (iblk5 V c 3 t : Vec Ideal S128x384 .f32) (ix2 k d) = (V c main_v5 : FVec Ideal Cert.GatedLayer.Wide .f32) (ix2 k d) := by
  obtain ⟨-, -, -, -, -, -, e0, e1, -⟩ := block_indices5 t
  unfold iblk5
  rw [View.read_apply]
  show V c main_v5 _ = V c main_v5 _
  congr 1
  funext a
  apply Fin.ext
  match a with
  | ⟨0, _⟩ => show win5_3.index t (0 : Fin 2) * 128 + 1 * k.val = k.val; rw [e0]; omega
  | ⟨1, _⟩ => show win5_3.index t (1 : Fin 2) * 384 + 1 * d.val = d.val; rw [e1]; omega

/-- The input bias row's block is the whole row at every point. -/
theorem bi_block5 (c : Dev nD) (t : Fin cfg5.N) (d : Fin 384) :
    (iblk5 V c 4 t : Vec Ideal S1x384 .f32) (ix2 (0 : Fin 1) d) = (V c main_v6 : FVec Ideal Cert.GatedLayer.Row .f32) (ix2 (0 : Fin 1) d) := by
  obtain ⟨-, -, -, -, -, -, -, -, e0, e1, -⟩ := block_indices5 t
  unfold iblk5
  rw [View.read_apply]
  show V c main_v6 _ = V c main_v6 _
  congr 1
  funext a
  apply Fin.ext
  match a with
  | ⟨0, _⟩ => show win5_4.index t (0 : Fin 2) * 1 + 1 * 0 = 0; rw [e0]
  | ⟨1, _⟩ => show win5_4.index t (1 : Fin 2) * 384 + 1 * d.val = d.val; rw [e1]; omega

/-- The hidden bias row's block is the whole row at every point. -/
theorem bh_block5 (c : Dev nD) (t : Fin cfg5.N) (d : Fin 384) :
    (iblk5 V c 5 t : Vec Ideal S1x384 .f32) (ix2 (0 : Fin 1) d) = (V c main_v7 : FVec Ideal Cert.GatedLayer.Row .f32) (ix2 (0 : Fin 1) d) := by
  obtain ⟨-, -, -, -, -, -, -, -, -, -, e0, e1, -⟩ := block_indices5 t
  unfold iblk5
  rw [View.read_apply]
  show V c main_v7 _ = V c main_v7 _
  congr 1
  funext a
  apply Fin.ext
  match a with
  | ⟨0, _⟩ => show win5_5.index t (0 : Fin 2) * 1 + 1 * 0 = 0; rw [e0]
  | ⟨1, _⟩ => show win5_5.index t (1 : Fin 2) * 384 + 1 * d.val = d.val; rw [e1]; omega

/-- WHAT POINT t WRITES BACK is its block of the whole-array cell function of the six input arrays. -/
theorem written_back5 (c : Dev nD) (t : Fin cfg5.N) :
    (dat5 (F := Ideal) V c).flushed 6 t = ((cfg5.win 6).blk t).view.read (Elt Ideal)
      (Cert.GatedLayer.gru (V c main_v48) (V c main_v35) (V c main_v4) (V c main_v5) (V c main_v6) (V c main_v7)) := by
  show (cfg5.win 6).cut (grid5.coords t) ((dat5 V c).after 6 t) = _
  rw [after5_6]
  unfold out5_6
  rw [View.canon_unit_zero zero_offsets]
  simp only [View.ld_unit_zero (S := S2000x128) zero_offsets, View.ld_unit_zero (S := S128x384) zero_offsets,
    View.ld_unit_zero (S := S1x384) zero_offsets]
  obtain ⟨-, -, -, -, -, -, -, -, -, -, -, -, e0, e1⟩ := block_indices5 t
  funext j
  refine (block_value5 (iblk5 V c 0 t) (iblk5 V c 1 t) (iblk5 V c 2 t) (iblk5 V c 3 t) (iblk5 V c 4 t) (iblk5 V c 5 t)
    (V c main_v48) (V c main_v35) (V c main_v4) (V c main_v5) (V c main_v6) (V c main_v7) (2000 * t.val) (rows_inside5 t)
    (agg_block5 V c t) (state_block5 V c t) (wi_block5 V c t) (wh_block5 V c t) (bi_block5 V c t) (bh_block5 V c t) j).trans ?_
  rw [View.read_apply]
  show Cert.GatedLayer.gru (V c main_v48) (V c main_v35) (V c main_v4) (V c main_v5) (V c main_v6) (V c main_v7) _
    = Cert.GatedLayer.gru (V c main_v48) (V c main_v35) (V c main_v4) (V c main_v5) (V c main_v6) (V c main_v7) _
  congr 1
  funext a
  apply Fin.ext
  match a with
  | ⟨0, _⟩ => show 2000 * t.val + (j 0).val = win5_6.index t (0 : Fin 2) * 2000 + 1 * (j 0).val; rw [e0]; omega
  | ⟨1, _⟩ => show (j 1).val = win5_6.index t (1 : Fin 2) * 128 + 1 * (j 1).val; rw [e1]; omega

/-- An index of the output array is in point t's block iff each coordinate is in the block's range on its axis. -/
theorem mem_block5 (t : Fin cfg5.N) (i : S50000x128.Idx) :
    i ∈ ((cfg5.win 6).blk t).view.set ↔ ∀ a : Fin 2, win5_6.index t a * S2000x128.size a ≤ (i a).val
      ∧ (i a).val < win5_6.index t a * S2000x128.size a + S2000x128.size a := by
  show i ∈ ((View.whole main_v49).slice (win5_6.rect t)).set ↔ _
  rw [View.set_slice_whole, Rect.mem_set_unit]
  exact Iff.rfl

/-- Row r is in the block of point r / 2000: the 25 blocks cover the array. -/
theorem rows_covered5 (i : S50000x128.Idx) :
    ∃ t : Fin cfg5.N, (cfg5.win 6).flush t = true ∧ i ∈ ((cfg5.win 6).blk t).view.set := by
  have hi0 : (i 0).val < 50000 := (i 0).isLt
  have hi1 : (i 1).val < 128 := (i 1).isLt
  have hN : cfg5.N = 25 := N_5
  let t : Fin cfg5.N := ⟨(i 0).val / 2000, by rw [hN]; omega⟩
  have ht : t.val = (i 0).val / 2000 := rfl
  obtain ⟨-, -, -, -, -, -, -, -, -, -, -, -, e0, e1⟩ := block_indices5 t
  refine ⟨t, flush5_6 t, ?_⟩
  rw [mem_block5]
  intro a
  match a with
  | ⟨0, _⟩ =>
    show win5_6.index t (0 : Fin 2) * 2000 ≤ (i 0).val ∧ (i 0).val < win5_6.index t (0 : Fin 2) * 2000 + 2000
    rw [e0, ht]; omega
  | ⟨1, _⟩ =>
    show win5_6.index t (1 : Fin 2) * 128 ≤ (i 1).val ∧ (i 1).val < win5_6.index t (1 : Fin 2) * 128 + 128
    rw [e1]; omega

/-- THE OUTPUT ARRAY after the launch is the cell function of the six input arrays as the launch finds them. -/
theorem gru_final5 (c : Dev nD) : (dat5 (F := Ideal) V c).arrAt 6 cfg5.N
    = Cert.GatedLayer.gru (V c main_v48) (V c main_v35) (V c main_v4) (V c main_v5) (V c main_v6) (V c main_v7) :=
  (dat5 (F := Ideal) V c).arrAt_eq_of_cover 6 _ (fun t _ => written_back5 V c t) (rows_covered5)

end Cert.KernelIdeal.RegionValue

end
-- ==== Proof.lean ====
/-
  Three layers of a gated graph convolution on 50000 nodes of 128 channels and 800000 edges: the kernel program
  against its reference, on the extended reals.

  One layer takes the node state h to  h' = cell(agg(h·W), h):  the messages m = h·W with the layer's 128×128 weight;
  the aggregation agg, which gathers the rows of m at the edges' source nodes and sums them into the rows of the
  destination nodes; and the gated recurrent cell, with pre-activations gi = agg·wi + bi and gh = h·wh + bh of 384
  columns in three bands,  r = σ(gi₀ + gh₀),  z = σ(gi₁ + gh₁),  n = tanh(gi₂ + r·gh₂),  h' = (1 − z)·n + z·h.

  The kernel program computes m and the cell in launches over 25 blocks of 2000 rows, between stretches of host
  operations that cut and transpose the parameters and do the gather and the scatter-add; the reference is one line
  of host operations.  Read at exact arithmetic, a launch's output array is the product, or the cell, of its whole input
  arrays (each block is the same function of the block's rows, and the blocks cover the rows); a matrix product on the
  matrix unit into a zero accumulator and the host's dot_general are the same sum over the 128 inner indices; a change of
  float format is the identity; the kernel's logistic operation is by definition 1/(1 + e^(−x)), the expression the
  reference spells out; and the gather and scatter-add are the same operations on both sides and are never opened.  The
  only difference left between the two programs' layers is how a bias vector becomes a row (a recast on one side, a
  broadcast along the columns on the other), which is the same row.  No step uses that an entry is finite: only 0 + x = x
  and the re-indexing of finite sums.

  The idealization rewrote no operation, so there is nothing to preserve beyond the program's own text.
-/
import proofs.«112620_j43748536877306_1_alg».proof.Defs
import proofs.«112620_j43748536877306_1_alg».proof.Proof.Gen.Kernel
import proofs.«112620_j43748536877306_1_alg».proof.Proof.Gen.Kernel.Skeleton
import proofs.«112620_j43748536877306_1_alg».proof.Proof.Gen.Kernel.Launch
import proofs.«112620_j43748536877306_1_alg».proof.Proof.Gen.Kernel.Points
import proofs.«112620_j43748536877306_1_alg».proof.Proof.Gen.Kernel.Frame
import proofs.«112620_j43748536877306_1_alg».proof.Proof.Gen.KernelIdeal
import proofs.«112620_j43748536877306_1_alg».proof.Proof.Gen.KernelIdeal.Skeleton
import proofs.«112620_j43748536877306_1_alg».proof.Proof.Gen.KernelIdeal.Launch
import proofs.«112620_j43748536877306_1_alg».proof.Proof.Gen.KernelIdeal.Points
import proofs.«112620_j43748536877306_1_alg».proof.Proof.Gen.KernelIdeal.Frame
import proofs.«112620_j43748536877306_1_alg».proof.Proof.Gen.ReferenceIdeal
import proofs.«112620_j43748536877306_1_alg».proof.Proof.Gen.ReferenceIdeal.Run
import proofs.«112620_j43748536877306_1_alg».proof.Proof.Gen.Pre_finite_inputs
import proofs.«112620_j43748536877306_1_alg».proof.Proof.KernelRun
import proofs.«112620_j43748536877306_1_alg».proof.Proof.Boundary
import proofs.«112620_j43748536877306_1_alg».proof.Proof.RefRun
import proofs.«112620_j43748536877306_1_alg».proof.Proof.MatmulValue0
import proofs.«112620_j43748536877306_1_alg».proof.Proof.MatmulValue2
import proofs.«112620_j43748536877306_1_alg».proof.Proof.MatmulValue4
import proofs.«112620_j43748536877306_1_alg».proof.Proof.CellValue1
import proofs.«112620_j43748536877306_1_alg».proof.Proof.CellValue3
import proofs.«112620_j43748536877306_1_alg».proof.Proof.CellValue5
import Idealize.ShloMosaic.Lib.ValueLayout
import Idealize.ShloMosaic.Adequacy
import Idealize.ShloMosaic.Init

noncomputable section

namespace Cert.Proof

open Idealize.ShloMosaic Idealize.ShloMosaic.ValueIdx Idealize.SL.Sem

/-! ## The two programs' layers are one function -/

/-- A vector of 384 entries recast as one row is the vector laid along the columns of a one-row matrix. -/
theorem row_cast_eq_broadcast (x : (⟨1, ![384]⟩ : Shape).Idx → EReal)
    (h1 : (⟨1, ![384]⟩ : Shape).ShapeCasts ⟨2, ![1, 384]⟩)
    (h2 : (⟨1, ![384]⟩ : Shape).BroadcastsInDim ⟨2, ![1, 384]⟩ (![1] : Fin 1 → Fin 2)) :
    broadcastInDim ⟨2, ![1, 384]⟩ ![1] h2 x = shapeCast ⟨2, ![1, 384]⟩ x h1 := by
  funext j
  obtain ⟨u, i, rfl⟩ : ∃ (u : Fin 1) (i : Fin 384), j = ix2 u i := ⟨j 0, j 1, eq_ix2 j⟩
  rw [shapeCast_a_1a_apply x h1 u i]
  exact broadcastInDim_apply _ h2 x _ (ix1 i) (fun a => by
    match a with
    | ⟨0, _⟩ => exact (if_neg (show ¬ (384 : ℕ) = 1 by decide)).symm)

/-- The two printed gather records hold the same dimension numbers. -/
theorem gather_eq : Cert.ReferenceIdeal.gather_S50000x128_S800000x1_S800000x128_1_0_n_n_0_1_1128
    = Cert.KernelIdeal.gather_S50000x128_S800000x1_S800000x128_1_0_n_n_0_1_1128 := rfl
/-- The two printed scatter records hold the same dimension numbers. -/
theorem scatter_eq : Cert.ReferenceIdeal.scatter_S50000x128_S800000x1_S800000x128_1_0_0_1
    = Cert.KernelIdeal.scatter_S50000x128_S800000x1_S800000x128_1_0_0_1 := rfl

section Agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
  (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))

include h1 in
theorem src_eq : Cert.ReferenceIdeal.RefValue.src m' c = Cert.KernelIdeal.Boundary.src m c := by
  unfold Cert.ReferenceIdeal.RefValue.src Cert.KernelIdeal.Boundary.src; rw [h1]
include h1 in
theorem dst_eq : Cert.ReferenceIdeal.RefValue.dst m' c = Cert.KernelIdeal.Boundary.dst m c := by
  unfold Cert.ReferenceIdeal.RefValue.dst Cert.KernelIdeal.Boundary.dst; rw [h1]
include h3 in
theorem wi_eq : Cert.ReferenceIdeal.RefValue.wi m' c = Cert.KernelIdeal.Boundary.wi m c := by
  unfold Cert.ReferenceIdeal.RefValue.wi Cert.KernelIdeal.Boundary.wi; rw [h3]
include h4 in
theorem wh_eq : Cert.ReferenceIdeal.RefValue.wh m' c = Cert.KernelIdeal.Boundary.wh m c := by
  unfold Cert.ReferenceIdeal.RefValue.wh Cert.KernelIdeal.Boundary.wh; rw [h4]
include h5 in
theorem bi_eq : Cert.ReferenceIdeal.RefValue.bi m' c = Cert.KernelIdeal.Boundary.bi m c := by
  unfold Cert.ReferenceIdeal.RefValue.bi Cert.KernelIdeal.Boundary.bi; rw [h5]
  exact row_cast_eq_broadcast _ _ _
include h6 in
theorem bh_eq : Cert.ReferenceIdeal.RefValue.bh m' c = Cert.KernelIdeal.Boundary.bh m c := by
  unfold Cert.ReferenceIdeal.RefValue.bh Cert.KernelIdeal.Boundary.bh; rw [h6]
  exact row_cast_eq_broadcast _ _ _
include h2 in
theorem slab0_eq : Cert.ReferenceIdeal.RefValue.slab0 m' c = Cert.KernelIdeal.Boundary.slab0 m c := by
  unfold Cert.ReferenceIdeal.RefValue.slab0 Cert.KernelIdeal.Boundary.slab0; rw [h2]
include h2 in
theorem slab1_eq : Cert.ReferenceIdeal.RefValue.slab1 m' c = Cert.KernelIdeal.Boundary.slab1 m c := by
  unfold Cert.ReferenceIdeal.RefValue.slab1 Cert.KernelIdeal.Boundary.slab1; rw [h2]
include h2 in
theorem slab2_eq : Cert.ReferenceIdeal.RefValue.slab2 m' c = Cert.KernelIdeal.Boundary.slab2 m c := by
  unfold Cert.ReferenceIdeal.RefValue.slab2 Cert.KernelIdeal.Boundary.slab2; rw [h2]

include h1 h3 h4 h5 h6 in
/-- With agreeing arguments the reference's layer is the kernel program's, as functions of the weight and the state. -/
theorem step_eq : Cert.ReferenceIdeal.RefValue.step m' c = Cert.KernelIdeal.Boundary.step m c := by
  funext W h
  unfold Cert.ReferenceIdeal.RefValue.step Cert.KernelIdeal.Boundary.step
  rw [src_eq m m' c h1, dst_eq m m' c h1, wi_eq m m' c h3, wh_eq m m' c h4, bi_eq m m' c h5, bh_eq m m' c h6, gather_eq, scatter_eq]

end Agree

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with three layers of the gated graph convolution applied to the node features: the kernel
    program by its six launches and the host operations between them, the reference by its host operations alone. -/
theorem algebraic : Cert.algebraic_KernelIdeal_ReferenceIdeal := by
  intro m ρ m' ρ' _ hagree
  refine ⟨fun c => Cert.KernelIdeal.Boundary.step m c (Cert.KernelIdeal.Boundary.slab2 m c)
      (Cert.KernelIdeal.Boundary.step m c (Cert.KernelIdeal.Boundary.slab1 m c)
        (Cert.KernelIdeal.Boundary.step m c (Cert.KernelIdeal.Boundary.slab0 m c)
          (m ((c.tc : Thread Cert.KernelIdeal.nD Cert.KernelIdeal.τ).loc Cert.KernelIdeal.main_arg0)))), ?_, ?_⟩
  · exact (θ_run Cert.KernelIdeal.defs _ _).mono
      (fun _ h c => ⟨(h c).1.trans (Cert.KernelIdeal.Boundary.result m ρ c
          Cert.KernelIdeal.RegionValue.mm_final0 Cert.KernelIdeal.RegionValue.mm_final2 Cert.KernelIdeal.RegionValue.mm_final4
          Cert.KernelIdeal.RegionValue.gru_final1 Cert.KernelIdeal.RegionValue.gru_final3 Cert.KernelIdeal.RegionValue.gru_final5), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := hagree c
    rw [Cert.ReferenceIdeal.RefValue.result_eq_hostLayers, Cert.ReferenceIdeal.RefValue.hostLayer_eq_step,
      Cert.ReferenceIdeal.RefValue.hostLayer_eq_step, Cert.ReferenceIdeal.RefValue.hostLayer_eq_step,
      step_eq m m' c h1 h3 h4 h5 h6, slab0_eq m m' c h2, slab1_eq m m' c h2, slab2_eq m m' c h2, h0]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
